-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S256x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10000x1 : Shape := ⟨2, ![10000, 1]⟩
abbrev S10000x129 : Shape := ⟨2, ![10000, 129]⟩
abbrev S128x128 : Shape := ⟨2, ![128, 128]⟩
abbrev S1x128 : Shape := ⟨2, ![1, 128]⟩
abbrev S257x128 : Shape := ⟨2, ![257, 128]⟩
abbrev S1x257x128 : Shape := ⟨3, ![1, 257, 128]⟩
abbrev S2x257x128 : Shape := ⟨3, ![2, 257, 128]⟩
abbrev S400x10000 : Shape := ⟨2, ![400, 10000]⟩
abbrev S400x128 : Shape := ⟨2, ![400, 128]⟩
abbrev S1x128x128 : Shape := ⟨3, ![1, 128, 128]⟩
abbrev S1x1x128 : Shape := ⟨3, ![1, 1, 128]⟩
abbrev S400x129 : Shape := ⟨2, ![400, 129]⟩
abbrev S400x1 : Shape := ⟨2, ![400, 1]⟩

abbrev nBuf : Space → Nat
  | .hbm => 22
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .bf16⟩
  | .hbm, ⟨7, _⟩ => ⟨S_, .bf16⟩
  | .hbm, ⟨8, _⟩ => ⟨S10000x1, .bf16⟩
  | .hbm, ⟨9, _⟩ => ⟨S10000x129, .bf16⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S257x128, .f32⟩
  | .hbm, ⟨14, _⟩ => ⟨S128x128, .f32⟩
  | .hbm, ⟨15, _⟩ => ⟨S128x128, .f32⟩
  | .hbm, ⟨16, _⟩ => ⟨S1x128, .f32⟩
  | .hbm, ⟨17, _⟩ => ⟨S257x128, .f32⟩
  | .hbm, ⟨18, _⟩ => ⟨S1x257x128, .f32⟩
  | .hbm, ⟨19, _⟩ => ⟨S1x257x128, .f32⟩
  | .hbm, ⟨20, _⟩ => ⟨S2x257x128, .f32⟩
  | .hbm, ⟨21, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x129, .bf16⟩
  | .local _ .vmem, ⟨3, _⟩ => ⟨S1x257x128, .f32⟩
  | .local _ .vmem, ⟨4, _⟩ => ⟨S1x257x128, .f32⟩
  | .local _ .vmem, ⟨5, _⟩ => ⟨S400x128, .f32⟩
  | .local _ .vmem, ⟨6, _⟩ => ⟨S400x128, .f32⟩
  | .local _ .vmem, ⟨7, _⟩ => ⟨S10000x129, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 25], ![false, false]⟩

def k0_mult1 (i : grid0.Coords) : BitVec 32 :=
  let arg1 : BitVec 32 := BitVec.ofNat 32 (i 1).val
  let c400_i32 : BitVec 32 := 400#32
  let v2 : BitVec 32 := Scalar.muli arg1 c400_i32
  v2
def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_8 : BitVec 32 := 0#32
  let v12 : BitVec 1 := Scalar.cmpi .ne v11 c0_i32_8
  v12

def k0_off1 (i : grid0.Coords) : Fin 2 → Nat :=
  let arg1 : BitVec 32 := BitVec.ofNat 32 (i 1).val
  let c400_i32 : BitVec 32 := 400#32
  let v2 : BitVec 32 := Scalar.muli arg1 c400_i32
  let v3 : BitVec 32 := v2
  let v19 : Index := Scalar.indexCast v3
  let c0_12 : Index := 0#32
  ![v19.toNat, 0]
def k0_off2 (i : grid0.Coords) : Fin 2 → Nat :=
  let arg1 : BitVec 32 := BitVec.ofNat 32 (i 1).val
  let c400_i32 : BitVec 32 := 400#32
  let v2 : BitVec 32 := Scalar.muli arg1 c400_i32
  let v3 : BitVec 32 := v2
  let v42 : Index := Scalar.indexCast v3
  let c128_19 : Index := 128#32
  ![v42.toNat, 128]
def k0_cond2 (i : grid0.Coords) : BitVec 1 :=
  let arg0 : BitVec 32 := BitVec.ofNat 32 (i 0).val
  let c1_i32 : BitVec 32 := 1#32
  let v13 : BitVec 1 := Scalar.cmpi .eq arg0 c1_i32
  let v14 : BitVec 32 := Scalar.extui v13
  let c0_i32_9 : BitVec 32 := 0#32
  let v15 : BitVec 1 := Scalar.cmpi .ne v14 c0_i32_9
  v15

def k0_off3 (i : grid0.Coords) : Fin 2 → Nat :=
  let arg1 : BitVec 32 := BitVec.ofNat 32 (i 1).val
  let c400_i32 : BitVec 32 := 400#32
  let v2 : BitVec 32 := Scalar.muli arg1 c400_i32
  let v3 : BitVec 32 := v2
  let v18 : Index := Scalar.indexCast v3
  let c0_12 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x129 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x257x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  bcast_S_S10000x1 : S_.BroadcastsInDim S10000x1 (![] : Fin 0 → Fin S10000x1.rank)
  concatenates_S10000x128_S10000x1_S10000x129_d1 : Shape.Concatenates [S10000x128, S10000x1] S10000x129 1
  slices_S256x128_S128x128_0_0 : S256x128.Slices ![0, 0] S128x128
  slices_S256x128_S128x128_128_0 : S256x128.Slices ![128, 0] S128x128
  shapeCasts_S128_S1x128 : S128.ShapeCasts S1x128
  concatenates_S128x128_S128x128_S1x128_S257x128_d0 : Shape.Concatenates [S128x128, S128x128, S1x128] S257x128 0
  bcast_S257x128_S1x257x128_1_2 : S257x128.BroadcastsInDim S1x257x128 (![1, 2] : Fin 2 → Fin S1x257x128.rank)
  concatenates_S1x257x128_S1x257x128_S2x257x128_d0 : Shape.Concatenates [S1x257x128, S1x257x128] S2x257x128 0
  inb_S400x10000_S400x10000_0_0 : ∀ a, (![0, 0] : Fin 2 → Nat) a + S400x10000.size a ≤ S400x10000.size a
  h_S400x10000 : 0 < S400x10000.numel
  inb_S1x257x128_S1x128x128_0_0_0 : ∀ a, (![0, 0, 0] : Fin 3 → Nat) a + S1x128x128.size a ≤ S1x257x128.size a
  h_S1x128x128 : 0 < S1x128x128.numel
  shapeCasts_S1x128x128_S128x128 : S1x128x128.ShapeCasts S128x128
  inb_S1x257x128_S1x128x128_0_128_0 : ∀ a, (![0, 128, 0] : Fin 3 → Nat) a + S1x128x128.size a ≤ S1x257x128.size a
  inb_S1x257x128_S1x1x128_0_256_0 : ∀ a, (![0, 256, 0] : Fin 3 → Nat) a + S1x1x128.size a ≤ S1x257x128.size a
  h_S1x1x128 : 0 < S1x1x128.numel
  shapeCasts_S1x1x128_S1x128 : S1x1x128.ShapeCasts S1x128
  inb_S10000x129_S10000x129_0_0 : ∀ a, (![0, 0] : Fin 2 → Nat) a + S10000x129.size a ≤ S10000x129.size a
  h_S10000x129 : 0 < S10000x129.numel
  shapeCasts_S10000x129_S10000x129 : S10000x129.ShapeCasts S10000x129
  h_S400x128 : 0 < S400x128.numel
  shapeCasts_S400x128_S400x128 : S400x128.ShapeCasts S400x128
  slices_S400x129_o0_0_S400x128 : S400x129.Slices ![0, 0] S400x128
  slices_S400x129_o0_128_S400x1 : S400x129.Slices ![0, 128] S400x1
  broadcasts_S400x1_S400x128 : S400x1.Broadcasts S400x128
  broadcasts_S1x128_S400x128 : S1x128.Broadcasts S400x128
  h_S400x1 : 0 < S400x1.numel
  shapeCasts_S400x1_S400x1 : S400x1.ShapeCasts S400x1
  inb_S400x128_S400x128_0_0 : ∀ a, (![0, 0] : Fin 2 → Nat) a + S400x128.size a ≤ S400x128.size a
  dot_S400x10000_S10000x129_S400x129_1_0_0_1_n_n_wf : DotDims.WF S400x10000 S10000x129 S400x129 [1] [0] [0] [1] [] []
  dot_S400x128_S128x128_S400x128_1_0_0_1_n_n_wf : DotDims.WF S400x128 S128x128 S400x128 [1] [0] [0] [1] [] []
  hrank0 : 0 < grid0.rank
  k0_mult1_dvd : ∀ i : grid0.Coords, 400 ∣ (k0_mult1 i).toNat
  k0_off1_inb : ∀ i : grid0.Coords, ∀ (k0_h1 : k0_cond1 i = 1#1), ∀ a, (k0_off1 i) a + S400x128.size a ≤ S10000x129.size a
  k0_off1_packedbf16 : ∀ i : grid0.Coords, ∀ (k0_h1 : k0_cond1 i = 1#1), (Rect.unit (s := S10000x129) (k0_off1 i) S400x128.size (k0_off1_inb i k0_h1)).PackedRows (EltTy.packing .bf16)
  k0_off2_inb : ∀ i : grid0.Coords, ∀ (k0_h1 : k0_cond1 i = 1#1), ∀ a, (k0_off2 i) a + S400x1.size a ≤ S10000x129.size a
  k0_off2_packedbf16 : ∀ i : grid0.Coords, ∀ (k0_h1 : k0_cond1 i = 1#1), (Rect.unit (s := S10000x129) (k0_off2 i) S400x1.size (k0_off2_inb i k0_h1)).PackedRows (EltTy.packing .bf16)
  k0_off3_inb : ∀ i : grid0.Coords, ∀ (k0_h2 : k0_cond2 i = 1#1), ∀ a, (k0_off3 i) a + S400x128.size a ≤ S10000x129.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x129.size a ≤ S10000x129.size a
  hwx0_1 : ∀ i : grid0.Coords, EltTy.bits .bf16 = 32 ∨ (Rect.block (s := S10000x129) S10000x129.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x257x128.size a ≤ S2x257x128.size a
  hwx0_2 : ∀ i : grid0.Coords, EltTy.bits .f32 = 32 ∨ (Rect.block (s := S2x257x128) S1x257x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x129_S400x129_1_0_0_1_n_n : DotDims S400x10000 S10000x129 S400x129 where
  lhsContracting := [1]
  rhsContracting := [0]
  lhsNonContracting := [0]
  rhsNonContracting := [1]
  lhsBatch := []
  rhsBatch := []
  wf := dot_S400x10000_S10000x129_S400x129_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x129.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x257x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S_, .f32⟩
  | .hbm, ⟨28, _⟩ => ⟨S_, .f32⟩
  | .hbm, ⟨29, _⟩ => ⟨S10000x1, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x256, .f32⟩
  | .hbm, ⟨35, _⟩ => ⟨S10000x128, .f32⟩
  | .hbm, ⟨36, _⟩ => ⟨S1x128, .f32⟩
  | .hbm, ⟨37, _⟩ => ⟨S10000x128, .f32⟩
  | .hbm, ⟨38, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call2_v0 : Ref sig .tc := ⟨.hbm, 28, rfl⟩
abbrev main_call2_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.WordFrameBase.lean ====
/-
  What the two layer cases of the fused kernel's run share: the buffers' contents when the one region is entered
  (after the host lines that pack the feature table [X | 1] and the two layers' weight slabs), each window's block at
  a grid point, and the grid's schedule in closed form: the grid is 2 x 25 points taken row-major, the first 25 points
  run layer 1 on row blocks 0..24, the last 25 run layer 2 on the same row blocks; row block b covers rows
  400 b .. 400 b + 399.
-/
import proofs.«138432_g21534966022541_cont_8to1_1342_19_alg».proof.Proof.Gen.Kernel.Launch
import proofs.«138432_g21534966022541_cont_8to1_1342_19_alg».proof.Proof.Gen.Kernel.Skeleton
import proofs.«138432_g21534966022541_cont_8to1_1342_19_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents on core c when the region is entered: the launch contents pushed through the host lines
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The six argument arrays end as launched: the adjacency is window 0's array, which no point writes back; the other
    five are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
    ((h c).1 0).trans (((dats 0 c).arrAt_in 0 rfl _).trans ((hA c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) h

/-! ## The schedule in closed form -/

/-- The layer-1 branch is taken at the first 25 points. -/
theorem hcond1 : ∀ t : Fin cfg0.N, k0_cond1 (grid0.coords t) = 1#1 ↔ t.val < 25 :=
  (by decide +kernel : ∀ t : Fin grid0.N, k0_cond1 (grid0.coords t) = 1#1 ↔ t.val < 25)
/-- The layer-2 branch is taken at the last 25 points. -/
theorem hcond2 : ∀ t : Fin cfg0.N, k0_cond2 (grid0.coords t) = 1#1 ↔ 25 ≤ t.val :=
  (by decide +kernel : ∀ t : Fin grid0.N, k0_cond2 (grid0.coords t) = 1#1 ↔ 25 ≤ t.val)
/-- The rows a point works on start at 400 times its row block. -/
theorem hoff1 : ∀ t : Fin cfg0.N, k0_off1 (grid0.coords t) = ![400 * (t.val % 25), 0] :=
  (by decide +kernel : ∀ t : Fin grid0.N, k0_off1 (grid0.coords t) = ![400 * (t.val % 25), 0])
theorem hoff2 : ∀ t : Fin cfg0.N, k0_off2 (grid0.coords t) = ![400 * (t.val % 25), 128] :=
  (by decide +kernel : ∀ t : Fin grid0.N, k0_off2 (grid0.coords t) = ![400 * (t.val % 25), 128])
theorem hoff3 : ∀ t : Fin cfg0.N, k0_off3 (grid0.coords t) = ![400 * (t.val % 25), 0] :=
  (by decide +kernel : ∀ t : Fin grid0.N, k0_off3 (grid0.coords t) = ![400 * (t.val % 25), 0])

/-- No window is idle at any point of the grid: every point stores its output block whole. -/
theorem liveAt (w : Fin 4) : ∀ t : Fin cfg0.N, cfg0.idle w (grid0.coords t) = false := by
  revert w; decide +kernel

/-! ## The staging memrefs and the carried table -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x129 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x257x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x128 .f32 := win0_3.stage (cfg0.slots t 3)
abbrev hs0_3 (t : Fin cfg0.N) : (ms0_3 t).IsWhole := hstage0_3 ((cfg0.slots t 3).cast nbuf0_3)
/-- The table of hidden features [h | 1] the kernel keeps between points: a whole scoped buffer of its own. -/
abbrev scM : Memref sig .tc .vmem S10000x129 .bf16 := Memref.whole cc0_scratch0
abbrev hscM : (scM).IsWhole := Memref.isWhole_whole _
/-- The same as a view, and one staging buffer of the output window as a view: contents are stated through them. -/
abbrev VS : View sig .tc .vmem S10000x129 .bf16 := scM.view
abbrev VO : View sig .tc .vmem S400x128 .f32 := (Memref.whole cc0_stg3_0 : Memref sig .tc .vmem S400x128 .f32).view

/-- The region's invariant as the launch hands it over: the carried table owned at some contents, and the generator
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.WordRunA.lean ====
/-
  The kernel body at a layer-1 point (first grid coordinate 0): it reads the adjacency row block, the packed feature
  table [X | 1] and the first layer's weight slab, stores the block of hidden features into the output block, and
  writes the same block (narrowed) and a column of ones into rows 400 b .. 400 b + 399 of the carried table.
  The run finds the list of stores each buffer ends with.
-/
import proofs.«138432_g21534966022541_cont_8to1_1342_19_alg».proof.Proof.WordFrameBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a layer-1 point, on whole staging memrefs — the three inputs at their contents, the output block at anything,
    the carried table at given contents f6 — the body runs to the continuation with the inputs as they were, the output
    block with its stores written over what it held, and the table with its two stores written over f6. -/
noncomputable def kernelRunA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) :
    Σ' (L3 : List (View.Piece (Elt F) S400x128 .f32)), { LS : List (View.Piece (Elt F) S10000x129 .bf16) //
      ∀ (f6 : arg6.view.ty.Contents (Elt F)) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (arg6.view.loc (c : Thread nD τ) ↦[arg6.view.set]{fullShare} f6)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) f6 LS)) -∗ K ⟨⟩))
          ⊢ wp frame (wpE (defs₀ (F := F)) Variants.none c none) E (cc0__fused_body i arg2 harg2 arg3 harg3 arg4 harg4 arg5 harg5 arg6 harg6) K } := by
  refine ⟨?_, ?_, fun f6 E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, HS, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HS

end Cert.Kernel.Hand

end
-- ==== Proof.WordRunB.lean ====
/-
  The kernel body at a layer-2 point (first grid coordinate 1): it reads the adjacency row block, the second layer's
  weight slab and the carried table of hidden features [h | 1] — whole, and once more its own 400 rows —, and stores
  the block of results into the output block. The table is only read. The run finds the output block's stores.
-/
import proofs.«138432_g21534966022541_cont_8to1_1342_19_alg».proof.Proof.WordRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a layer-2 point, on whole staging memrefs — the inputs at their contents, the output block at anything, the
    carried table at contents xs — the body runs to the continuation with everything but the output block as it was
    and the output block with its stores written over what it held. -/
noncomputable def kernelRunB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) :
    { L3 : List (View.Piece (Elt F) S400x128 .f32) //
      ∀ (x1 : Vec F S10000x129 .bf16) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__fused_body i arg2 harg2 arg3 harg3 arg4 harg4 arg5 harg5 arg6 harg6) K } := by
  refine ⟨?_, fun x1 E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Hand

end
-- ==== Proof.WordFrame.lean ====
/-
  The frame of the fused two-layer kernel, and what its buffers hold point by point.

  The grid's 50 points run row-major: points 0..24 are layer 1 on row blocks 0..24, points 25..49 layer 2 on the
  same row blocks. A layer-1 point stores its block of hidden features into the output block and writes the block
  [h | 1] into rows 400 b .. 400 b + 399 of the table the kernel carries; a layer-2 point reads that table whole.
  The invariant carried from point to point is that after n points the table's first 400 n rows are the hidden table's
  (all 10000 once n >= 25): a layer-1 point extends the known rows by its own block and touches no other row; a
  layer-2 point changes nothing. The hidden table itself is named row block by row block as what the layer-1 point of
  that block writes.
-/
import proofs.«138432_g21534966022541_cont_8to1_1342_19_alg».proof.Proof.WordRunB
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## What a point's stores leave -/

/-- A layer-1 point's one store into the output block covers it. -/
theorem coverA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) (y : S400x128.Idx) :
    ∃ pc ∈ (kernelRunA c i arg2 harg2 arg3 harg3 arg4 harg4 arg5 harg5 arg6 harg6 hc1 hc2 x0 x1 x2).1, y ∈ pc.1.set :=
  View.cover_of_tiledL (kernelRunA c i arg2 harg2 arg3 harg3 arg4 harg4 arg5 harg5 arg6 harg6 hc1 hc2 x0 x1 x2).1 S400x128.size (by sl_kernel_rfl) y

/-- What a layer-1 point leaves in the output block: its store read back. -/
def outA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) : Vec F S400x128 .f32 :=
  VO.read (Elt F) (VO.writes (Elt F) VO.junk (kernelRunA c i arg2 harg2 arg3 harg3 arg4 harg4 arg5 harg5 arg6 harg6 hc1 hc2 x0 x1 x2).1)

/-- A layer-2 point's one store into the output block covers it. -/
theorem coverB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) (y : S400x128.Idx) :
    ∃ pc ∈ (kernelRunB c i arg2 harg2 arg3 harg3 arg4 harg4 arg5 harg5 arg6 harg6 hc1 hc2 x0 x2 xs).1, y ∈ pc.1.set :=
  View.cover_of_tiledL (kernelRunB c i arg2 harg2 arg3 harg3 arg4 harg4 arg5 harg5 arg6 harg6 hc1 hc2 x0 x2 xs).1 S400x128.size (by sl_kernel_rfl) y

/-- What a layer-2 point leaves in the output block. -/
def outB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) : Vec F S400x128 .f32 :=
  VO.read (Elt F) (VO.writes (Elt F) VO.junk (kernelRunB c i arg2 harg2 arg3 harg3 arg4 harg4 arg5 harg5 arg6 harg6 hc1 hc2 x0 x2 xs).1)

/-- A layer-1 point's two stores into the table cover every entry of its 400 rows: columns 0..127 by the block of
    hidden features, column 128 by the column of ones. -/
theorem tab_cover (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32)
    (o : ℕ) (ho1 : k0_off1 i = ![o, 0]) (ho2 : k0_off2 i = ![o, 128]) (y : S10000x129.Idx)
    (hy : o ≤ (y 0).val ∧ (y 0).val < o + 400) :
    ∃ pc ∈ (kernelRunA c i arg2 harg2 arg3 harg3 arg4 harg4 arg5 harg5 arg6 harg6 hc1 hc2 x0 x1 x2).2.1, y ∈ pc.1.set := by
  unfold kernelRunA; dsimp only
  have h1 := idx2_lt1 y
  by_cases hk : (y 1).val < 128
  · refine ⟨_, List.mem_cons_of_mem _ List.mem_cons_self, ?_⟩
    rw [Rect.mem_set_unit, ho1]
    exact Fin.forall_fin_two.mpr ⟨by simpa using hy, by simpa using hk⟩
  · refine ⟨_, List.mem_cons_self, ?_⟩
    rw [Rect.mem_set_unit, ho2]
    exact Fin.forall_fin_two.mpr ⟨by simpa using hy, by simp; omega⟩

/-- And touch no entry of any other row. -/
theorem tab_miss (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32)
    (o : ℕ) (ho1 : k0_off1 i = ![o, 0]) (ho2 : k0_off2 i = ![o, 128]) (y : S10000x129.Idx)
    (hy : (y 0).val < o ∨ o + 400 ≤ (y 0).val) :
    ∀ pc ∈ (kernelRunA c i arg2 harg2 arg3 harg3 arg4 harg4 arg5 harg5 arg6 harg6 hc1 hc2 x0 x1 x2).2.1, y ∉ pc.1.set := by
  unfold kernelRunA; dsimp only
  intro pc hpc
  simp only [List.mem_cons, List.mem_nil_iff, or_false] at hpc
  rcases hpc with rfl | rfl
  · rw [Rect.mem_set_unit, ho2]; intro hall; have := hall 0; simp at this; omega
  · rw [Rect.mem_set_unit, ho1]; intro hall; have := hall 0; simp at this; omega

/-! ## The hidden table -/

/-- A point below 25 is a layer-1 point. -/
theorem c1_of_lt (t : Fin cfg0.N) (h : t.val < 25) : k0_cond1 (grid0.coords t) = 1#1 := (hcond1 t).mpr h
theorem nc2_of_lt (t : Fin cfg0.N) (h : t.val < 25) : ¬ k0_cond2 (grid0.coords t) = 1#1 := fun h2 => by
  have := (hcond2 t).mp h2; omega
/-- A point from 25 on is a layer-2 point. -/
theorem nc1_of_ge (t : Fin cfg0.N) (h : ¬ t.val < 25) : ¬ k0_cond1 (grid0.coords t) = 1#1 := fun h1 => h ((hcond1 t).mp h1)
theorem c2_of_ge (t : Fin cfg0.N) (h : ¬ t.val < 25) : k0_cond2 (grid0.coords t) = 1#1 := (hcond2 t).mpr (by omega)

/-- The stores the layer-1 point t makes into the table. -/
abbrev tabStores (c : Dev nD) (t : Fin cfg0.N) (h : t.val < 25) : List (View.Piece (Elt F) S10000x129 .bf16) :=
  (kernelRunA c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)).2.1

/-- The table as the layer-1 point of row block t writes it (over anything): its rows 400 t .. 400 t + 399 are row
    block t of the hidden table. -/
def hiddenBlk (c : Dev nD) (t : Fin cfg0.N) (h : t.val < 25) : Vec F S10000x129 .bf16 :=
  VS.read (Elt F) (VS.writes (Elt F) VS.junk (tabStores m c t h))

theorem pt_lt (y : S10000x129.Idx) : (y 0).val / 400 < cfg0.N := by
  have := idx2_lt0 y; have hN : cfg0.N = 50 := N_0; omega
theorem pt_lt25 (y : S10000x129.Idx) : (y 0).val / 400 < 25 := by
  have := idx2_lt0 y; omega

/-- The hidden table [h | 1]: each entry as the layer-1 point of its row block writes it. -/
def hiddenTab (c : Dev nD) : Vec F S10000x129 .bf16 := fun y =>
  hiddenBlk m c ⟨(y 0).val / 400, pt_lt y⟩ (pt_lt25 y) y

theorem hiddenTab_eq (c : Dev nD) (y : S10000x129.Idx) (t : Fin cfg0.N) (h : t.val < 25) (hy : (y 0).val / 400 = t.val) :
    hiddenTab m c y = hiddenBlk m c t h y := by
  obtain ⟨n, hn⟩ := t
  simp only at hy
  subst hy
  rfl

/-- After n points the table's first 400 n rows are the hidden table's. -/
def Known (c : Dev nD) (n : ℕ) (d : Vec F S10000x129 .bf16) : Prop :=
  ∀ y : S10000x129.Idx, (y 0).val < 400 * n → d y = hiddenTab m c y

theorem known_all (c : Dev nD) (n : ℕ) (hn : 25 ≤ n) (d : Vec F S10000x129 .bf16) (h : Known m c n d) : d = hiddenTab m c :=
  funext fun y => h y (by have := idx2_lt0 y; omega)

/-- A layer-1 point extends the known rows by its own block. -/
theorem known_step (c : Dev nD) (t : Fin cfg0.N) (h : t.val < 25) (f : VS.ty.Contents (Elt F))
    (hf : Known m c t.val (VS.read (Elt F) f)) :
    Known m c (t.val + 1) (VS.read (Elt F) (VS.writes (Elt F) f (tabStores m c t h))) := by
  intro y hy
  have ho1 := hoff1 t; have ho2 := hoff2 t
  have hmod : t.val % 25 = t.val := Nat.mod_eq_of_lt h
  rw [hmod] at ho1 ho2
  by_cases hr : 400 * t.val ≤ (y 0).val
  · have hcov := tab_cover c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
      (400 * t.val) ho1 ho2 y ⟨hr, by omega⟩
    rw [View.read_writes_apply_eq VS f VS VS.junk y _ hcov, hiddenTab_eq m c y t h (by omega)]
    rfl
  · have hmiss := tab_miss c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
      (400 * t.val) ho1 ho2 y (Or.inl (by omega))
    rw [View.read_writes_apply_of_forall_not_mem VS f y _ hmiss]
    exact hf y (by omega)

/-! ## The proof data -/

/-- What the body leaves in the output block at point t: a layer-1 point its block of hidden features, a layer-2 point
    its block of results computed from the hidden table. -/
def afterOut (c : Dev nD) (t : Fin cfg0.N) : Vec F S400x128 .f32 :=
  if h : t.val < 25 then
    outA c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
  else
    outB c (grid0.coords t) (ms0_0 t) (hs0_0 t) (ms0_1 t) (hs0_1 t) (ms0_2 t) (hs0_2 t) (ms0_3 t) (hs0_3 t) scM hscM (nc1_of_ge t h) (c2_of_ge t h) (iblk m c 0 t) (iblk m c 2 t) (hiddenTab m c)

/-- The region's invariant before point n: the carried table held at contents whose first 400 n rows are the hidden
    table's, and the generator register at some state. -/
def PhiS (c : Dev nD) (n : ℕ) : sProp 𝕄 :=
  iprop(iprop(∃ f : VS.ty.Contents (Elt F), ⌜Known m c n (VS.read (Elt F) f)⌝ ∗ (VS.loc (c : Thread nD τ) ↦[VS.set]{fullShare} f)) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => afterOut m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = afterOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 4000000 in
/-- The body at any point: the closed forms say which layer the point runs; the invariant hands the body the carried
    table and takes it back with the known rows extended (layer 1) or unchanged (layer 2). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t, leaves_live m c 1 t, leaves_live m c 2 t, leaves_live m c 3 t,
    after0_0, after0_1, after0_2, after0_3]
  unfold PhiS afterOut
  by_cases h : t.val < 25
  · rw [dif_pos h]
    unfold outA
    iintro ⟨⟨⟨%f, %hf, HS⟩, Hg⟩, Ho, ⟨%d0, H0⟩, ⟨%d1, H1⟩, ⟨%d2, H2⟩, ⟨%d3, H3⟩⟩
    iapply ((kernelRunA c (grid0.coords t) _ _ _ _ _ _ _ _ scM hscM (c1_of_lt t h) (nc2_of_lt t h) (iblk m c 0 t) (iblk m c 1 t) (iblk m c 2 t)).2.2 f Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; isplitr
        swap; · iexact HS
        ipureintro; exact known_step m c t h f hf
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _)
  · rw [dif_neg h]
    unfold outB
    iintro ⟨⟨⟨%f, %hf, HS⟩, Hg⟩, Ho, ⟨%d0, H0⟩, ⟨%d1, H1⟩, ⟨%d2, H2⟩, ⟨%d3, H3⟩⟩
    have hall : VS.read (Elt F) f = hiddenTab m c := known_all m c t.val (by omega) _ hf
    iapply ((kernelRunB c (grid0.coords t) _ _ _ _ _ _ _ _ scM hscM (nc1_of_ge t h) (c2_of_ge t h) (iblk m c 0 t) (iblk m c 2 t) (hiddenTab m c)).2 _ Set.univ _)
    isplitl [H0]; · iexact H0
    isplitl [H1]; · iexact H1
    isplitl [H2]; · iexact H2
    isplitl [H3]; · iexists _; iexact H3
    isplitl [HS]
    · unfold owns; iexists f; isplitr
      · ipureintro; exact hall
      iexact HS
    iintro ⟨H0, H1, H2, ⟨%e3, H3⟩, HS⟩
    isplitl [HS Hg]
    · isplitl [HS]
      · unfold owns
        icases HS with ⟨%f', %hf', HS⟩
        iexists f'; isplitr
        swap; · iexact HS
        ipureintro; intro y _; rw [hf']
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is known yet. -/
theorem hin (c : Dev nD) : Pipeline.ΦA spec0 c ⊢ (dats m 0 c).Φ 0 := by
  rw [show (dats m 0 c).Φ 0 = PhiS m c 0 from rfl, PhiA0_eq]
  unfold PhiS owns
  iintro ⟨⟨%d, %f, %hf, HS⟩, Hg⟩
  isplitl [HS]
  · iexists f; isplitr
    · ipureintro; intro y hy; omega
    iexact HS
  iexact Hg

/-- After the last point the invariant gives the table back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS owns
  iintro ⟨⟨%f, %hf, HS⟩, Hg⟩
  isplitl [HS]
  · iexists _; iexists f; isplitr
    · ipureintro; rfl
    iexact HS
  iexact Hg

/-! ## The run and the frame -/

set_option backward.isDefEq.respectTransparency.types false in
/-- Every weakly fair execution of @main terminates, nothing faulting; every array of the pipeline ends at what the
    proof data's write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.FrameBase.lean ====
/-
  What the two layer cases of the fused kernel's run share: the buffers' contents when the one region is entered
  (after the host lines that pack the feature table [X | 1] and the two layers' weight slabs), each window's block at
  a grid point, and the grid's schedule in closed form: the grid is 2 x 25 points taken row-major, the first 25 points
  run layer 1 on row blocks 0..24, the last 25 run layer 2 on the same row blocks; row block b covers rows
  400 b .. 400 b + 399.
-/
import proofs.«138432_g21534966022541_cont_8to1_1342_19_alg».proof.Proof.Gen.KernelIdeal.Launch
import proofs.«138432_g21534966022541_cont_8to1_1342_19_alg».proof.Proof.Gen.KernelIdeal.Skeleton
import proofs.«138432_g21534966022541_cont_8to1_1342_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents on core c when the region is entered: the launch contents pushed through the host lines
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor

/-- @main is the host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- The six argument arrays end as launched: the adjacency is window 0's array, which no point writes back; the other
    five are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
    ((h c).1 0).trans (((dats 0 c).arrAt_in 0 rfl _).trans ((hA c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) h

/-! ## The schedule in closed form -/

/-- The layer-1 branch is taken at the first 25 points. -/
theorem hcond1 : ∀ t : Fin cfg0.N, k0_cond1 (grid0.coords t) = 1#1 ↔ t.val < 25 :=
  (by decide +kernel : ∀ t : Fin grid0.N, k0_cond1 (grid0.coords t) = 1#1 ↔ t.val < 25)
/-- The layer-2 branch is taken at the last 25 points. -/
theorem hcond2 : ∀ t : Fin cfg0.N, k0_cond2 (grid0.coords t) = 1#1 ↔ 25 ≤ t.val :=
  (by decide +kernel : ∀ t : Fin grid0.N, k0_cond2 (grid0.coords t) = 1#1 ↔ 25 ≤ t.val)
/-- The rows a point works on start at 400 times its row block. -/
theorem hoff1 : ∀ t : Fin cfg0.N, k0_off1 (grid0.coords t) = ![400 * (t.val % 25), 0] :=
  (by decide +kernel : ∀ t : Fin grid0.N, k0_off1 (grid0.coords t) = ![400 * (t.val % 25), 0])
theorem hoff2 : ∀ t : Fin cfg0.N, k0_off2 (grid0.coords t) = ![400 * (t.val % 25), 128] :=
  (by decide +kernel : ∀ t : Fin grid0.N, k0_off2 (grid0.coords t) = ![400 * (t.val % 25), 128])
theorem hoff3 : ∀ t : Fin cfg0.N, k0_off3 (grid0.coords t) = ![400 * (t.val % 25), 0] :=
  (by decide +kernel : ∀ t : Fin grid0.N, k0_off3 (grid0.coords t) = ![400 * (t.val % 25), 0])

/-- No window is idle at any point of the grid: every point stores its output block whole. -/
theorem liveAt (w : Fin 4) : ∀ t : Fin cfg0.N, cfg0.idle w (grid0.coords t) = false := by
  revert w; decide +kernel

/-! ## The staging memrefs and the carried table -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x129 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x257x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x128 .f32 := win0_3.stage (cfg0.slots t 3)
abbrev hs0_3 (t : Fin cfg0.N) : (ms0_3 t).IsWhole := hstage0_3 ((cfg0.slots t 3).cast nbuf0_3)
/-- The table of hidden features [h | 1] the kernel keeps between points: a whole scoped buffer of its own. -/
abbrev scM : Memref sig .tc .vmem S10000x129 .bf16 := Memref.whole cc0_scratch0
abbrev hscM : (scM).IsWhole := Memref.isWhole_whole _
/-- The same as a view, and one staging buffer of the output window as a view: contents are stated through them. -/
abbrev VS : View sig .tc .vmem S10000x129 .bf16 := scM.view
abbrev VO : View sig .tc .vmem S400x128 .f32 := (Memref.whole cc0_stg3_0 : Memref sig .tc .vmem S400x128 .f32).view

/-- The region's invariant as the launch hands it over: the carried table owned at some contents, and the generator
    register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.RunA.lean ====
/-
  The kernel body at a layer-1 point (first grid coordinate 0): it reads the adjacency row block, the packed feature
  table [X | 1] and the first layer's weight slab, stores the block of hidden features into the output block, and
  writes the same block (narrowed) and a column of ones into rows 400 b .. 400 b + 399 of the carried table.
  The run finds the list of stores each buffer ends with.
-/
import proofs.«138432_g21534966022541_cont_8to1_1342_19_alg».proof.Proof.FrameBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a layer-1 point, on whole staging memrefs — the three inputs at their contents, the output block at anything,
    the carried table at given contents f6 — the body runs to the continuation with the inputs as they were, the output
    block with its stores written over what it held, and the table with its two stores written over f6. -/
noncomputable def kernelRunA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) :
    Σ' (L3 : List (View.Piece (Elt F) S400x128 .f32)), { LS : List (View.Piece (Elt F) S10000x129 .bf16) //
      ∀ (f6 : arg6.view.ty.Contents (Elt F)) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (arg6.view.loc (c : Thread nD τ) ↦[arg6.view.set]{fullShare} f6)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) f6 LS)) -∗ K ⟨⟩))
          ⊢ wp frame (wpE (defs₀ (F := F)) Variants.none c none) E (cc0__fused_body i arg2 harg2 arg3 harg3 arg4 harg4 arg5 harg5 arg6 harg6) K } := by
  refine ⟨?_, ?_, fun f6 E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, HS, Hk⟩
    obtain rfl := harg2.eq_unread hf0; obtain rfl := harg3.eq_unread hf1; obtain rfl := harg4.eq_unread hf2
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HS

end Cert.KernelIdeal.Hand

end
-- ==== Proof.RunB.lean ====
/-
  The kernel body at a layer-2 point (first grid coordinate 1): it reads the adjacency row block, the second layer's
  weight slab and the carried table of hidden features [h | 1] — whole, and once more its own 400 rows —, and stores
  the block of results into the output block. The table is only read. The run finds the output block's stores.
-/
import proofs.«138432_g21534966022541_cont_8to1_1342_19_alg».proof.Proof.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a layer-2 point, on whole staging memrefs — the inputs at their contents, the output block at anything, the
    carried table at contents xs — the body runs to the continuation with everything but the output block as it was
    and the output block with its stores written over what it held. -/
noncomputable def kernelRunB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) :
    { L3 : List (View.Piece (Elt F) S400x128 .f32) //
      ∀ (x1 : Vec F S10000x129 .bf16) (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__fused_body i arg2 harg2 arg3 harg3 arg4 harg4 arg5 harg5 arg6 harg6) K } := by
  refine ⟨?_, fun x1 E K => ?run⟩
  case run =>
    simp only [cc0__fused_body_eq_skeleton]; unfold cc0__fused_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Hand

end
-- ==== Proof.Frame.lean ====
/-
  The frame of the fused two-layer kernel, and what its buffers hold point by point.

  The grid's 50 points run row-major: points 0..24 are layer 1 on row blocks 0..24, points 25..49 layer 2 on the
  same row blocks. A layer-1 point stores its block of hidden features into the output block and writes the block
  [h | 1] into rows 400 b .. 400 b + 399 of the table the kernel carries; a layer-2 point reads that table whole.
  The invariant carried from point to point is that after n points the table's first 400 n rows are the hidden table's
  (all 10000 once n >= 25): a layer-1 point extends the known rows by its own block and touches no other row; a
  layer-2 point changes nothing. The hidden table itself is named row block by row block as what the layer-1 point of
  that block writes.
-/
import proofs.«138432_g21534966022541_cont_8to1_1342_19_alg».proof.Proof.RunB
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## What a point's stores leave -/

/-- A layer-1 point's one store into the output block covers it. -/
theorem coverA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) (y : S400x128.Idx) :
    ∃ pc ∈ (kernelRunA c i arg2 harg2 arg3 harg3 arg4 harg4 arg5 harg5 arg6 harg6 hc1 hc2 x0 x1 x2).1, y ∈ pc.1.set :=
  View.cover_of_tiledL (kernelRunA c i arg2 harg2 arg3 harg3 arg4 harg4 arg5 harg5 arg6 harg6 hc1 hc2 x0 x1 x2).1 S400x128.size (by sl_kernel_rfl) y

/-- What a layer-1 point leaves in the output block: its store read back. -/
def outA (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32) : Vec F S400x128 .f32 :=
  VO.read (Elt F) (VO.writes (Elt F) VO.junk (kernelRunA c i arg2 harg2 arg3 harg3 arg4 harg4 arg5 harg5 arg6 harg6 hc1 hc2 x0 x1 x2).1)

/-- A layer-2 point's one store into the output block covers it. -/
theorem coverB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) (y : S400x128.Idx) :
    ∃ pc ∈ (kernelRunB c i arg2 harg2 arg3 harg3 arg4 harg4 arg5 harg5 arg6 harg6 hc1 hc2 x0 x2 xs).1, y ∈ pc.1.set :=
  View.cover_of_tiledL (kernelRunB c i arg2 harg2 arg3 harg3 arg4 harg4 arg5 harg5 arg6 harg6 hc1 hc2 x0 x2 xs).1 S400x128.size (by sl_kernel_rfl) y

/-- What a layer-2 point leaves in the output block. -/
def outB (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec F S400x10000 .f32) (x2 : Vec F S1x257x128 .f32) (xs : Vec F S10000x129 .bf16) : Vec F S400x128 .f32 :=
  VO.read (Elt F) (VO.writes (Elt F) VO.junk (kernelRunB c i arg2 harg2 arg3 harg3 arg4 harg4 arg5 harg5 arg6 harg6 hc1 hc2 x0 x2 xs).1)

/-- A layer-1 point's two stores into the table cover every entry of its 400 rows: columns 0..127 by the block of
    hidden features, column 128 by the column of ones. -/
theorem tab_cover (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32)
    (o : ℕ) (ho1 : k0_off1 i = ![o, 0]) (ho2 : k0_off2 i = ![o, 128]) (y : S10000x129.Idx)
    (hy : o ≤ (y 0).val ∧ (y 0).val < o + 400) :
    ∃ pc ∈ (kernelRunA c i arg2 harg2 arg3 harg3 arg4 harg4 arg5 harg5 arg6 harg6 hc1 hc2 x0 x1 x2).2.1, y ∈ pc.1.set := by
  unfold kernelRunA; dsimp only
  have h1 := idx2_lt1 y
  by_cases hk : (y 1).val < 128
  · refine ⟨_, List.mem_cons_of_mem _ List.mem_cons_self, ?_⟩
    rw [Rect.mem_set_unit, ho1]
    exact Fin.forall_fin_two.mpr ⟨by simpa using hy, by simpa using hk⟩
  · refine ⟨_, List.mem_cons_self, ?_⟩
    rw [Rect.mem_set_unit, ho2]
    exact Fin.forall_fin_two.mpr ⟨by simpa using hy, by simp; omega⟩

/-- And touch no entry of any other row. -/
theorem tab_miss (c : Dev nD) (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec F S400x10000 .f32) (x1 : Vec F S10000x129 .bf16) (x2 : Vec F S1x257x128 .f32)
    (o : ℕ) (ho1 : k0_off1 i = ![o, 0]) (ho2 : k0_off2 i = ![o, 128]) (y : S10000x129.Idx)
    (hy : (y 0).val < o ∨ o + 400 ≤ (y 0).val) :
    ∀ pc ∈ (kernelRunA c i arg2 harg2 arg3 harg3 arg4 harg4 arg5 harg5 arg6 harg6 hc1 hc2 x0 x1 x2).2.1, y ∉ pc.1.set := by
  unfold kernelRunA; dsimp only
  intro pc hpc
  simp only [List.mem_cons, List.mem_nil_iff, or_false] at hpc
  rcases hpc with rfl | rfl
  · rw [Rect.mem_set_unit, ho2]; intro hall; have := hall 0; simp at this; omega
  · rw [Rect.mem_set_unit, ho1]; intro hall; have := hall 0; simp at this; omega

/-! ## The hidden table -/

/-- A point below 25 is a layer-1 point. -/
theorem c1_of_lt (t : Fin cfg0.N) (h : t.val < 25) : k0_cond1 (grid0.coords t) = 1#1 := (hcond1 t).mpr h
theorem nc2_of_lt (t : Fin cfg0.N) (h : t.val < 25) : ¬ k0_cond2 (grid0.coords t) = 1#1 := fun h2 => by
  have := (hcond2 t).mp h2; omega
/-- A point from 25 on is a layer-2 point. -/
theorem nc1_of_ge (t : Fin cfg0.N) (h : ¬ t.val < 25) : ¬ k0_cond1 (grid0.coords t) = 1#1 := fun h1 => h ((hcond1 t).mp h1)
theorem c2_of_ge (t : Fin cfg0.N) (h : ¬ t.val < 25) : k0_cond2 (grid0.coords t) = 1#1 := (hcond2 t).mpr (by omega)

/-- The stores the layer-1 point t makes into the table. -/
abbrev tabStores (c : Dev nD) (t : Fin cfg0.N) (h : t.val < 25) : List (View.Piece (Elt F) S10000x129 .bf16) :=
  (kernelRunA c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)).2.1

/-- The table as the layer-1 point of row block t writes it (over anything): its rows 400 t .. 400 t + 399 are row
    block t of the hidden table. -/
def hiddenBlk (c : Dev nD) (t : Fin cfg0.N) (h : t.val < 25) : Vec F S10000x129 .bf16 :=
  VS.read (Elt F) (VS.writes (Elt F) VS.junk (tabStores m c t h))

theorem pt_lt (y : S10000x129.Idx) : (y 0).val / 400 < cfg0.N := by
  have := idx2_lt0 y; have hN : cfg0.N = 50 := N_0; omega
theorem pt_lt25 (y : S10000x129.Idx) : (y 0).val / 400 < 25 := by
  have := idx2_lt0 y; omega

/-- The hidden table [h | 1]: each entry as the layer-1 point of its row block writes it. -/
def hiddenTab (c : Dev nD) : Vec F S10000x129 .bf16 := fun y =>
  hiddenBlk m c ⟨(y 0).val / 400, pt_lt y⟩ (pt_lt25 y) y

theorem hiddenTab_eq (c : Dev nD) (y : S10000x129.Idx) (t : Fin cfg0.N) (h : t.val < 25) (hy : (y 0).val / 400 = t.val) :
    hiddenTab m c y = hiddenBlk m c t h y := by
  obtain ⟨n, hn⟩ := t
  simp only at hy
  subst hy
  rfl

/-- After n points the table's first 400 n rows are the hidden table's. -/
def Known (c : Dev nD) (n : ℕ) (d : Vec F S10000x129 .bf16) : Prop :=
  ∀ y : S10000x129.Idx, (y 0).val < 400 * n → d y = hiddenTab m c y

theorem known_all (c : Dev nD) (n : ℕ) (hn : 25 ≤ n) (d : Vec F S10000x129 .bf16) (h : Known m c n d) : d = hiddenTab m c :=
  funext fun y => h y (by have := idx2_lt0 y; omega)

/-- A layer-1 point extends the known rows by its own block. -/
theorem known_step (c : Dev nD) (t : Fin cfg0.N) (h : t.val < 25) (f : VS.ty.Contents (Elt F))
    (hf : Known m c t.val (VS.read (Elt F) f)) :
    Known m c (t.val + 1) (VS.read (Elt F) (VS.writes (Elt F) f (tabStores m c t h))) := by
  intro y hy
  have ho1 := hoff1 t; have ho2 := hoff2 t
  have hmod : t.val % 25 = t.val := Nat.mod_eq_of_lt h
  rw [hmod] at ho1 ho2
  by_cases hr : 400 * t.val ≤ (y 0).val
  · have hcov := tab_cover c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
      (400 * t.val) ho1 ho2 y ⟨hr, by omega⟩
    rw [View.read_writes_apply_eq VS f VS VS.junk y _ hcov, hiddenTab_eq m c y t h (by omega)]
    rfl
  · have hmiss := tab_miss c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
      (400 * t.val) ho1 ho2 y (Or.inl (by omega))
    rw [View.read_writes_apply_of_forall_not_mem VS f y _ hmiss]
    exact hf y (by omega)

/-! ## The proof data -/

/-- What the body leaves in the output block at point t: a layer-1 point its block of hidden features, a layer-2 point
    its block of results computed from the hidden table. -/
def afterOut (c : Dev nD) (t : Fin cfg0.N) : Vec F S400x128 .f32 :=
  if h : t.val < 25 then
    outA c (grid0.coords t) (ms0_0 t) (hs0_0 t) (ms0_1 t) (hs0_1 t) (ms0_2 t) (hs0_2 t) (ms0_3 t) (hs0_3 t) scM hscM (c1_of_lt t h) (nc2_of_lt t h) (iblk m c 0 t) (iblk m c 1 t) (iblk m c 2 t)
  else
    outB c (grid0.coords t) (ms0_0 t) (hs0_0 t) (ms0_1 t) (hs0_1 t) (ms0_2 t) (hs0_2 t) (ms0_3 t) (hs0_3 t) scM hscM (nc1_of_ge t h) (c2_of_ge t h) (iblk m c 0 t) (iblk m c 2 t) (hiddenTab m c)

/-- The region's invariant before point n: the carried table held at contents whose first 400 n rows are the hidden
    table's, and the generator register at some state. -/
def PhiS (c : Dev nD) (n : ℕ) : sProp 𝕄 :=
  iprop(iprop(∃ f : VS.ty.Contents (Elt F), ⌜Known m c n (VS.read (Elt F) f)⌝ ∗ (VS.loc (c : Thread nD τ) ↦[VS.set]{fullShare} f)) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => afterOut m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = afterOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_live (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

set_option maxHeartbeats 4000000 in
/-- The body at any point: the closed forms say which layer the point runs; the invariant hands the body the carried
    table and takes it back with the known rows extended (layer 1) or unchanged (layer 2). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_live m c 0 t, leaves_live m c 1 t, leaves_live m c 2 t, leaves_live m c 3 t,
    after0_0, after0_1, after0_2, after0_3]
  unfold PhiS afterOut
  by_cases h : t.val < 25
  · rw [dif_pos h]
    unfold outA
    iintro ⟨⟨⟨%f, %hf, HS⟩, Hg⟩, Ho, ⟨%d0, H0⟩, ⟨%d1, H1⟩, ⟨%d2, H2⟩, ⟨%d3, H3⟩⟩
    iapply ((kernelRunA c (grid0.coords t) _ _ _ _ _ _ _ _ scM hscM (c1_of_lt t h) (nc2_of_lt t h) (iblk m c 0 t) (iblk m c 1 t) (iblk m c 2 t)).2.2 f Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]
      · iexists _; isplitr
        swap; · iexact HS
        ipureintro; exact known_step m c t h f hf
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _ _)
  · rw [dif_neg h]
    unfold outB
    iintro ⟨⟨⟨%f, %hf, HS⟩, Hg⟩, Ho, ⟨%d0, H0⟩, ⟨%d1, H1⟩, ⟨%d2, H2⟩, ⟨%d3, H3⟩⟩
    have hall : VS.read (Elt F) f = hiddenTab m c := known_all m c t.val (by omega) _ hf
    iapply ((kernelRunB c (grid0.coords t) _ _ _ _ _ _ _ _ scM hscM (nc1_of_ge t h) (c2_of_ge t h) (iblk m c 0 t) (iblk m c 2 t) (hiddenTab m c)).2 _ Set.univ _)
    isplitl [H0]; · iexact H0
    isplitl [H1]; · iexact H1
    isplitl [H2]; · iexact H2
    isplitl [H3]; · iexists _; iexact H3
    isplitl [HS]
    · unfold owns; iexists f; isplitr
      · ipureintro; exact hall
      iexact HS
    iintro ⟨H0, H1, H2, ⟨%e3, H3⟩, HS⟩
    isplitl [HS Hg]
    · isplitl [HS]
      · unfold owns
        icases HS with ⟨%f', %hf', HS⟩
        iexists f'; isplitr
        swap; · iexact HS
        ipureintro; intro y _; rw [hf']
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is known yet. -/
theorem hin (c : Dev nD) : Pipeline.ΦA spec0 c ⊢ (dats m 0 c).Φ 0 := by
  rw [show (dats m 0 c).Φ 0 = PhiS m c 0 from rfl, PhiA0_eq]
  unfold PhiS owns
  iintro ⟨⟨%d, %f, %hf, HS⟩, Hg⟩
  isplitl [HS]
  · iexists f; isplitr
    · ipureintro; intro y hy; omega
    iexact HS
  iexact Hg

/-- After the last point the invariant gives the table back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS owns
  iintro ⟨⟨%f, %hf, HS⟩, Hg⟩
  isplitl [HS]
  · iexists _; iexists f; isplitr
    · ipureintro; rfl
    iexact HS
  iexact Hg

/-! ## The run and the frame -/

set_option backward.isDefEq.respectTransparency.types false in
/-- Every weakly fair execution of @main terminates, nothing faulting; every array of the pipeline ends at what the
    proof data's write-backs make of it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The mathematics both programs compute, stated once over coordinate functions on the extended reals.

  A mean-aggregator graph layer over a dense weighted adjacency A on N = 10000 nodes with 128 features:
  for node r and output feature j,
      layer r j = (sum_k X r k * Ws k j  +  sum_k ((sum_q A r q * X q k) / max eps (sum_q A r q)) * Wn k j) + b j,
  the self term, the degree-normalised neighbour mean pushed through the neighbour weights, and the bias.
  The network is two such layers with a maximum against z between them.
-/
import Idealize.ShloMosaic.PureOps.Ideal
import Idealize.ShloMosaic.Lib.ValueIdx
import Mathlib

noncomputable section

open scoped BigOperators

namespace Cert.SageSpec

open Idealize.ShloMosaic Idealize.ShloMosaic.ValueIdx

/-- Row k of the upper half of a 256-row weight matrix. -/
abbrev lo (k : Fin 128) : Fin 256 := ⟨k.val, by omega⟩
/-- Row 128 + k, the lower half. -/
abbrev hi (k : Fin 128) : Fin 256 := ⟨128 + k.val, by omega⟩

/-- The clipped weighted degree of node r: max eps (sum_q A r q). -/
def deg (ε : EReal) (A : Fin 10000 → Fin 10000 → EReal) (r : Fin 10000) : EReal :=
  max ε (∑ q : Fin 10000, A r q)

/-- The neighbour mean of feature k at node r: (sum_q A r q * X q k) / deg r. -/
def neigh (ε : EReal) (A : Fin 10000 → Fin 10000 → EReal) (X : Fin 10000 → Fin 128 → EReal)
    (r : Fin 10000) (k : Fin 128) : EReal :=
  Ideal.div (∑ q : Fin 10000, A r q * X q k) (deg ε A r)

/-- One layer at node r, output feature j. -/
def layer (ε : EReal) (A : Fin 10000 → Fin 10000 → EReal) (X : Fin 10000 → Fin 128 → EReal)
    (Ws Wn : Fin 128 → Fin 128 → EReal) (b : Fin 128 → EReal) (r : Fin 10000) (j : Fin 128) : EReal :=
  ((∑ k : Fin 128, X r k * Ws k j) + (∑ k : Fin 128, neigh ε A X r k * Wn k j)) + b j

/-- The hidden features: the first layer joined with z by a maximum. -/
def hidden (ε z : EReal) (A : Fin 10000 → Fin 10000 → EReal) (X : Fin 10000 → Fin 128 → EReal)
    (Ws Wn : Fin 128 → Fin 128 → EReal) (b : Fin 128 → EReal) (r : Fin 10000) (k : Fin 128) : EReal :=
  max (layer ε A X Ws Wn b r k) z

/-- Two layers. -/
def net (ε z : EReal) (A : Fin 10000 → Fin 10000 → EReal) (X : Fin 10000 → Fin 128 → EReal)
    (W1s W1n : Fin 128 → Fin 128 → EReal) (b1 : Fin 128 → EReal)
    (W2s W2n : Fin 128 → Fin 128 → EReal) (b2 : Fin 128 → EReal) (r : Fin 10000) (j : Fin 128) : EReal :=
  layer ε A (hidden ε z A X W1s W1n b1) W2s W2n b2 r j

/-- The lower clip bound both programs write as the f32 word 0x358637BD. -/
abbrev eps : EReal := Ideal.ofBits .f32 0x358637BD#32
/-- The f32 zero word. -/
abbrev zero : EReal := Ideal.ofBits .f32 0x00000000#32

/-- The result array as one function of the six argument arrays, index by index. -/
def G (fts : (⟨2, ![10000, 128]⟩ : Shape).Idx → EReal) (adj : (⟨2, ![10000, 10000]⟩ : Shape).Idx → EReal)
    (W1 : (⟨2, ![256, 128]⟩ : Shape).Idx → EReal) (b1 : (⟨1, ![128]⟩ : Shape).Idx → EReal)
    (W2 : (⟨2, ![256, 128]⟩ : Shape).Idx → EReal) (b2 : (⟨1, ![128]⟩ : Shape).Idx → EReal) :
    (⟨2, ![10000, 128]⟩ : Shape).Idx → EReal := fun i =>
  net eps zero (fun r q => adj (ix2 r q)) (fun r k => fts (ix2 r k))
    (fun k j => W1 (ix2 (lo k) j)) (fun k j => W1 (ix2 (hi k) j)) (fun j => b1 (ix1 j))
    (fun k j => W2 (ix2 (lo k) j)) (fun k j => W2 (ix2 (hi k) j)) (fun j => b2 (ix1 j)) (i 0) (i 1)

end Cert.SageSpec

end
-- ==== Proof.BodyMath.lean ====
/-
  The kernel body's arithmetic read at an index, at the ideal instance.

  The body forms one product of the adjacency block with the feature table extended by a column of ones: columns
  0..127 of the product are the neighbour sums and column 128 is the row degree. It divides the former by the clipped
  latter, pushes the block's own rows and the quotient through the self and neighbour weights, and adds the bias.
  Each payload is read here at (p, j) as the sums the operations denote on the extended reals.
-/
import proofs.«138432_g21534966022541_cont_8to1_1342_19_alg».proof.Proof.Gen.KernelIdeal.Skeleton
import proofs.«138432_g21534966022541_cont_8to1_1342_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyMath

open Cert.KernelIdeal Cert.KernelIdeal.Gen Idealize.ShloMosaic Idealize.ShloMosaic.ValueIdx

/-- The table's last column, the column of ones. -/
abbrev c128 : Fin 129 := ⟨128, by omega⟩
/-- Feature k as a column of the extended table. -/
abbrev col (k : Fin 128) : Fin 129 := ⟨k.val, by omega⟩

/-! ## The two products read at an index -/

/-- The dimension numbers of the [400,10000] x [10000,129] product. -/
abbrev DA := dot_S400x10000_S10000x129_S400x129_1_0_0_1_n_n
/-- The dimension numbers of the [400,128] x [128,128] products. -/
abbrev DW := dot_S400x128_S128x128_S400x128_1_0_0_1_n_n

theorem DA_lhs0 (i : S400x129.Idx) (q : DA.contr.Idx) : (DA.lhsIdx i q 0).val = (i 0).val := by
  unfold DotDims.lhsIdx
  rw [dif_neg (show ¬(0 : Fin S400x10000.rank) ∈ DA.lhsBatch by decide),
    dif_pos (show (0 : Fin S400x10000.rank) ∈ DA.lhsNonContracting by decide)]
  rfl
theorem DA_lhs1 (i : S400x129.Idx) (q : DA.contr.Idx) : (DA.lhsIdx i q 1).val = (q ⟨0, by decide⟩).val :=
  DA.lhsIdx_val_of_single rfl i q
theorem DA_rhs0 (i : S400x129.Idx) (q : DA.contr.Idx) : (DA.rhsIdx i q 0).val = (q ⟨0, by decide⟩).val :=
  DA.rhsIdx_val_of_single rfl i q
theorem DA_rhs1 (i : S400x129.Idx) (q : DA.contr.Idx) : (DA.rhsIdx i q 1).val = (i 1).val := by
  unfold DotDims.rhsIdx
  rw [dif_neg (show ¬(1 : Fin S10000x129.rank) ∈ DA.rhsBatch by decide),
    dif_pos (show (1 : Fin S10000x129.rank) ∈ DA.rhsNonContracting by decide)]
  rfl

/-- The adjacency block times the extended table, into a zero accumulator, at (p, c): the sum over the 10000 nodes. -/
theorem prodA_apply (A : FVec Ideal S400x10000 .bf16) (T : FVec Ideal S10000x129 .bf16) (p : Fin 400) (c : Fin 129) :
    matmul DA none A T (constant (F := Ideal) S400x129 .f32 0x00000000#32) (ix2 p c)
      = ∑ q : Fin 10000, A (ix2 p q) * T (ix2 q c) := by
  refine (Ideal.matmul_constant_zero_apply DA none A T (ix2 p c)).trans ?_
  rw [← Equiv.sum_comp (contrEquiv1 DA 10000 rfl rfl).symm]
  refine Finset.sum_congr rfl fun k _ => ?_
  have hk := contrEquiv1_symm_val DA 10000 rfl rfl k
  have el : DA.lhsIdx (ix2 p c) ((contrEquiv1 DA 10000 rfl rfl).symm k) = ix2 p k := funext fun a => Fin.ext (by
    match a with
    | ⟨0, _⟩ => exact DA_lhs0 _ _
    | ⟨1, _⟩ => exact (DA_lhs1 _ _).trans hk)
  have er : DA.rhsIdx (ix2 p c) ((contrEquiv1 DA 10000 rfl rfl).symm k) = ix2 k c := funext fun a => Fin.ext (by
    match a with
    | ⟨0, _⟩ => exact (DA_rhs0 _ _).trans hk
    | ⟨1, _⟩ => exact DA_rhs1 _ _)
  rw [el, er]

theorem DW_lhs0 (i : S400x128.Idx) (q : DW.contr.Idx) : (DW.lhsIdx i q 0).val = (i 0).val := by
  unfold DotDims.lhsIdx
  rw [dif_neg (show ¬(0 : Fin S400x128.rank) ∈ DW.lhsBatch by decide),
    dif_pos (show (0 : Fin S400x128.rank) ∈ DW.lhsNonContracting by decide)]
  rfl
theorem DW_lhs1 (i : S400x128.Idx) (q : DW.contr.Idx) : (DW.lhsIdx i q 1).val = (q ⟨0, by decide⟩).val :=
  DW.lhsIdx_val_of_single rfl i q
theorem DW_rhs0 (i : S400x128.Idx) (q : DW.contr.Idx) : (DW.rhsIdx i q 0).val = (q ⟨0, by decide⟩).val :=
  DW.rhsIdx_val_of_single rfl i q
theorem DW_rhs1 (i : S400x128.Idx) (q : DW.contr.Idx) : (DW.rhsIdx i q 1).val = (i 1).val := by
  unfold DotDims.rhsIdx
  rw [dif_neg (show ¬(1 : Fin S128x128.rank) ∈ DW.rhsBatch by decide),
    dif_pos (show (1 : Fin S128x128.rank) ∈ DW.rhsNonContracting by decide)]
  rfl

/-- A [400,128] block times a [128,128] weight matrix, into a zero accumulator, at (p, j): the sum over the 128 features. -/
theorem prodW_apply (X : FVec Ideal S400x128 .f32) (W : FVec Ideal S128x128 .f32) (p : Fin 400) (j : Fin 128) :
    matmul DW (some .fp32) X W (constant (F := Ideal) S400x128 .f32 0x00000000#32) (ix2 p j)
      = ∑ k : Fin 128, X (ix2 p k) * W (ix2 k j) := by
  refine (Ideal.matmul_constant_zero_apply DW (some .fp32) X W (ix2 p j)).trans ?_
  rw [← Equiv.sum_comp (contrEquiv1 DW 128 rfl rfl).symm]
  refine Finset.sum_congr rfl fun k _ => ?_
  have hk := contrEquiv1_symm_val DW 128 rfl rfl k
  have el : DW.lhsIdx (ix2 p j) ((contrEquiv1 DW 128 rfl rfl).symm k) = ix2 p k := funext fun a => Fin.ext (by
    match a with
    | ⟨0, _⟩ => exact DW_lhs0 _ _
    | ⟨1, _⟩ => exact (DW_lhs1 _ _).trans hk)
  have er : DW.rhsIdx (ix2 p j) ((contrEquiv1 DW 128 rfl rfl).symm k) = ix2 k j := funext fun a => Fin.ext (by
    match a with
    | ⟨0, _⟩ => exact (DW_rhs0 _ _).trans hk
    | ⟨1, _⟩ => exact DW_rhs1 _ _)
  rw [el, er]

/-! ## The layout operations read at an index -/

/-- A [400,1] column broadcast along the features reads, at (p, j), the column at p. -/
theorem bcastCol_apply {α : Type} (v : S400x1.Idx → α) (h : S400x1.Broadcasts S400x128) (p : Fin 400) (j : Fin 128) :
    broadcastTo S400x128 v h (ix2 p j) = v (ix2 p (0 : Fin 1)) := by
  refine broadcastTo_apply v h (ix2 p j) (ix2 p (0 : Fin 1)) fun ax => ?_
  match ax with
  | ⟨0, _⟩ =>
    show p.val = if (400 : Nat) = 1 then 0 else p.val
    rw [if_neg (by decide)]
  | ⟨1, _⟩ =>
    show 0 = if (1 : Nat) = 1 then 0 else j.val
    rw [if_pos rfl]

/-! ## One layer's block at an index -/

/-- One layer's block at (p, j) from the adjacency block A, the extended table T, the block's own rows Xs and the weight
    slabs: the self term, the clipped-degree-normalised neighbour sums through the neighbour weights, and the bias. -/
def blockLayer (A : S400x10000.Idx → EReal) (Ws Wn : S1x128x128.Idx → EReal) (b : S1x1x128.Idx → EReal)
    (T : S10000x129.Idx → EReal) (Xs : S400x128.Idx → EReal) (p : Fin 400) (j : Fin 128) : EReal :=
  ((∑ k : Fin 128, Xs (ix2 p k) * Ws (ix3 (0 : Fin 1) k j))
    + (∑ k : Fin 128, Ideal.div (∑ q : Fin 10000, A (ix2 p q) * T (ix2 q (col k)))
          (max Cert.SageSpec.eps (∑ q : Fin 10000, A (ix2 p q) * T (ix2 q c128))) * Wn (ix3 (0 : Fin 1) k j)))
    + b (ix3 (0 : Fin 1) (0 : Fin 1) j)

/-- Where the table's last column is the column of ones, the product's last column is the plain row sum of the
    adjacency block, so the block is the layer's formula with the degree written as that row sum. -/
theorem blockLayer_of_ones (A : S400x10000.Idx → EReal) (Ws Wn : S1x128x128.Idx → EReal) (b : S1x1x128.Idx → EReal)
    (T : S10000x129.Idx → EReal) (Xs : S400x128.Idx → EReal) (hT : ∀ q : Fin 10000, T (ix2 q c128) = 1)
    (p : Fin 400) (j : Fin 128) :
    blockLayer A Ws Wn b T Xs p j
      = ((∑ k : Fin 128, Xs (ix2 p k) * Ws (ix3 (0 : Fin 1) k j))
          + (∑ k : Fin 128, Ideal.div (∑ q : Fin 10000, A (ix2 p q) * T (ix2 q (col k)))
                (max Cert.SageSpec.eps (∑ q : Fin 10000, A (ix2 p q))) * Wn (ix3 (0 : Fin 1) k j)))
        + b (ix3 (0 : Fin 1) (0 : Fin 1) j) := by
  unfold blockLayer
  simp only [hT, mul_one]

/-- The operations both branches of the body apply, as one term of the adjacency block (already narrowed), the table
    and the block's own rows. -/
def core (A : FVec Ideal S400x10000 .bf16) (v4 v6 : Vec Ideal S1x128x128 .f32) (v8 : Vec Ideal S1x1x128 .f32)
    (T : FVec Ideal S10000x129 .bf16) (Xs : FVec Ideal S400x128 .bf16) : FVec Ideal S400x128 .f32 :=
  addf
    (addf
      (matmul DW (some .fp32) (extf .f32 Xs bitsLt_bf16_f32) (k0_pay2 v4) (constant (F := Ideal) S400x128 .f32 0x00000000#32))
      (matmul DW (some .fp32)
        (divf
          (extractStridedSlice S400x128 ![0, 0]
            (matmul DA none A T (constant (F := Ideal) S400x129 .f32 0x00000000#32)) slices_S400x129_o0_0_S400x128)
          (broadcastTo S400x128
            (maximumf (broadcast S400x1 (Scalar.ofBits (F := Ideal) .f32 0x358637BD#32))
              (extractStridedSlice S400x1 ![0, 128]
                (matmul DA none A T (constant (F := Ideal) S400x129 .f32 0x00000000#32)) slices_S400x129_o0_128_S400x1))
            broadcasts_S400x1_S400x128))
        (k0_pay3 v6) (constant (F := Ideal) S400x128 .f32 0x00000000#32)))
    (broadcastTo S400x128 (k0_pay4 v8) broadcasts_S1x128_S400x128)

/-- The neighbour sums over the clipped degree, at (p, k). -/
theorem mean_apply (A : FVec Ideal S400x10000 .bf16) (T : FVec Ideal S10000x129 .bf16) (p : Fin 400) (k : Fin 128) :
    divf
        (extractStridedSlice S400x128 ![0, 0]
          (matmul DA none A T (constant (F := Ideal) S400x129 .f32 0x00000000#32)) slices_S400x129_o0_0_S400x128)
        (broadcastTo S400x128
          (maximumf (broadcast S400x1 (Scalar.ofBits (F := Ideal) .f32 0x358637BD#32))
            (extractStridedSlice S400x1 ![0, 128]
              (matmul DA none A T (constant (F := Ideal) S400x129 .f32 0x00000000#32)) slices_S400x129_o0_128_S400x1))
          broadcasts_S400x1_S400x128) (ix2 p k)
      = Ideal.div (∑ q : Fin 10000, A (ix2 p q) * T (ix2 q (col k)))
          (max Cert.SageSpec.eps (∑ q : Fin 10000, A (ix2 p q) * T (ix2 q c128))) := by
  refine (divf_apply _ _ _).trans (congrArg₂ Ideal.div ?_ ?_)
  · exact (slice2_axis1_apply 0 _ slices_S400x129_o0_0_S400x128 p k (col k) (Nat.zero_add _).symm).trans
      (prodA_apply A T p (col k))
  · refine (bcastCol_apply _ broadcasts_S400x1_S400x128 p k).trans ((maximumf_apply _ _ _).trans (congrArg₂ max rfl ?_))
    exact (slice2_axis1_apply 128 _ slices_S400x129_o0_128_S400x1 p (0 : Fin 1) c128 rfl).trans
      (prodA_apply A T p c128)

/-- The shared term at (p, j). -/
theorem core_apply (A : FVec Ideal S400x10000 .bf16) (v4 v6 : Vec Ideal S1x128x128 .f32) (v8 : Vec Ideal S1x1x128 .f32)
    (T : FVec Ideal S10000x129 .bf16) (Xs : FVec Ideal S400x128 .bf16) (p : Fin 400) (j : Fin 128) :
    core A v4 v6 v8 T Xs (ix2 p j) = blockLayer A v4 v6 v8 T Xs p j := by
  unfold core blockLayer
  refine (addf_apply _ _ _).trans (congrArg₂ (· + ·) ((addf_apply _ _ _).trans (congrArg₂ (· + ·) ?_ ?_)) ?_)
  · refine (prodW_apply _ _ p j).trans (Finset.sum_congr rfl fun k _ => ?_)
    exact congrArg₂ (· * ·) (extf_apply Xs bitsLt_bf16_f32 (ix2 p k))
      (shapeCast_1ab_ab_apply v4 shapeCasts_S1x128x128_S128x128 k j)
  · refine (prodW_apply _ _ p j).trans (Finset.sum_congr rfl fun k _ => ?_)
    exact congrArg₂ (· * ·) (mean_apply A T p k) (shapeCast_1ab_ab_apply v6 shapeCasts_S1x128x128_S128x128 k j)
  · exact (broadcastTo_1b_ab_apply _ broadcasts_S1x128_S400x128 p j).trans
      (shapeCast_1ab_ab_apply v8 shapeCasts_S1x1x128_S1x128 (0 : Fin 1) j)

/-! ## The payloads -/

/-- The second layer's block at (p, j). -/
theorem pay8_apply (v0 : Vec Ideal S400x10000 .f32) (v4 v6 : Vec Ideal S1x128x128 .f32) (v8 : Vec Ideal S1x1x128 .f32)
    (v16 : Vec Ideal S10000x129 .bf16) (v19 : Vec Ideal S400x128 .bf16) (p : Fin 400) (j : Fin 128) :
    k0_pay8 (F := Ideal) v0 v4 v6 v8 v16 v19 (ix2 p j) = blockLayer v0 v4 v6 v8 v16 v19 p j :=
  core_apply (k0_pay1 v0) v4 v6 v8 v16 v19 p j

/-- The first layer's block with its maximum against zero, at (p, j). -/
theorem pay5_apply (v0 : Vec Ideal S400x10000 .f32) (v4 v6 : Vec Ideal S1x128x128 .f32) (v8 : Vec Ideal S1x1x128 .f32)
    (v16 : Vec Ideal S10000x129 .bf16) (v20 : Vec Ideal S400x128 .bf16) (p : Fin 400) (j : Fin 128) :
    k0_pay5 (F := Ideal) v0 v4 v6 v8 v16 v20 (ix2 p j) = max (blockLayer v0 v4 v6 v8 v16 v20 p j) Cert.SageSpec.zero := by
  have e : k0_pay5 (F := Ideal) v0 v4 v6 v8 v16 v20
      = maximumf (core (k0_pay1 v0) v4 v6 v8 (shapeCast S10000x129 v16 shapeCasts_S10000x129_S10000x129)
          (shapeCast S400x128 v20 shapeCasts_S400x128_S400x128))
        (broadcast S400x128 (Scalar.ofBits (F := Ideal) .f32 0x00000000#32)) := rfl
  rw [e, shapeCast_self v16, shapeCast_self v20]
  exact (maximumf_apply _ _ _).trans (congrArg₂ max (core_apply (k0_pay1 v0) v4 v6 v8 v16 v20 p j) rfl)

/-- What the body carries to the second layer is the first layer's block: narrowing is the identity on the extended
    reals and a cast to the same shape reads the same index. -/
theorem pay6_apply (v0 : Vec Ideal S400x10000 .f32) (v4 v6 : Vec Ideal S1x128x128 .f32) (v8 : Vec Ideal S1x1x128 .f32)
    (v16 : Vec Ideal S10000x129 .bf16) (v20 : Vec Ideal S400x128 .bf16) (p : Fin 400) (j : Fin 128) :
    k0_pay6 (F := Ideal) v0 v4 v6 v8 v16 v20 (ix2 p j) = k0_pay5 (F := Ideal) v0 v4 v6 v8 v16 v20 (ix2 p j) := by
  have e : k0_pay6 (F := Ideal) v0 v4 v6 v8 v16 v20
      = shapeCast S400x128 (truncf .bf16 (k0_pay5 (F := Ideal) v0 v4 v6 v8 v16 v20) bitsLt_bf16_f32)
          shapeCasts_S400x128_S400x128 := rfl
  rw [e, shapeCast_self]
  rfl

/-- The column the body appends to the carried table is the column of ones. -/
theorem pay7_apply (p : Fin 400) : k0_pay7 (F := Ideal) (ix2 p (0 : Fin 1)) = 1 := by
  have e : k0_pay7 (F := Ideal)
      = shapeCast S400x1 (broadcast S400x1 (Scalar.ofBits (F := Ideal) .bf16 0x3F80#16)) shapeCasts_S400x1_S400x1 := rfl
  rw [e, shapeCast_self]
  show Ideal.ofBits .bf16 0x3F80#16 = 1
  simp [Ideal.ofBits, Ideal.ieee, -EReal.coe_mul]; norm_num

end Cert.KernelIdeal.BodyMath

end
-- ==== Proof.Loads.lean ====
/-
  What a load reads of a whole staging buffer whose contents are known.

  A load through the unit-stride rectangle at offsets off, of sizes n, reads at index j the buffer's entry at
  off + j, coordinate by coordinate. Stated here for the rectangles this kernel loads through: the whole buffer
  (zero offsets, the buffer's own sizes), the three row slabs of the [1, 257, 128] weight block, and a block of
  rows of the [10000, 129] table at a row offset known only through an equation.
-/
import proofs.«138432_g21534966022541_cont_8to1_1342_19_alg».proof.Proof.Gen.KernelIdeal
import Idealize.ShloMosaic.Lib.WholeRead
import Idealize.ShloMosaic.Lib.ValueIdx

noncomputable section

namespace Cert.KernelIdeal.Loads

open Cert.KernelIdeal Idealize.ShloMosaic Idealize.ShloMosaic.ValueIdx

variable {F : FTy → Type}

/-! ## The whole buffer -/

/-- A load through the rectangle of the buffer's own sizes at zero offsets, however the zeros are spelt, reads
    the contents. -/
theorem readAt_whole {S : Shape} {e : EltTy} (mr : Memref sig .tc .vmem S e) (h : mr.IsWhole) (x : Vec F S e)
    {off : Fin S.rank → ℕ} (hz : off = fun _ => 0) (inb : ∀ a, off a + S.size a ≤ S.size a) :
    View.readAt (Elt F) mr.view (Rect.unit (s := S) off S.size inb).toLoadRect (h.unread x) = x := by
  rw [View.readAt_eq_ld, h.read_unread, View.ld_unit_zero hz]

/-- The rank-2 zero offsets as the program spells them. -/
theorem zero2 : (![0, 0] : Fin 2 → ℕ) = fun _ => 0 :=
  funext fun a => by match a with | ⟨0, _⟩ => rfl | ⟨1, _⟩ => rfl

/-- The whole [400, 10000] block. -/
theorem readAt_whole_S400x10000 (mr : Memref sig .tc .vmem S400x10000 .f32) (h : mr.IsWhole)
    (x : Vec F S400x10000 .f32) (inb : ∀ a, (![0, 0] : Fin 2 → ℕ) a + S400x10000.size a ≤ S400x10000.size a) :
    View.readAt (Elt F) mr.view (Rect.unit (s := S400x10000) ![0, 0] S400x10000.size inb).toLoadRect (h.unread x) = x :=
  readAt_whole mr h x zero2 inb

/-- The whole [10000, 129] table. -/
theorem readAt_whole_S10000x129 (mr : Memref sig .tc .vmem S10000x129 .bf16) (h : mr.IsWhole)
    (x : Vec F S10000x129 .bf16) (inb : ∀ a, (![0, 0] : Fin 2 → ℕ) a + S10000x129.size a ≤ S10000x129.size a) :
    View.readAt (Elt F) mr.view (Rect.unit (s := S10000x129) ![0, 0] S10000x129.size inb).toLoadRect (h.unread x) = x :=
  readAt_whole mr h x zero2 inb

/-- The whole [400, 128] block. -/
theorem readAt_whole_S400x128 (mr : Memref sig .tc .vmem S400x128 .f32) (h : mr.IsWhole)
    (x : Vec F S400x128 .f32) (inb : ∀ a, (![0, 0] : Fin 2 → ℕ) a + S400x128.size a ≤ S400x128.size a) :
    View.readAt (Elt F) mr.view (Rect.unit (s := S400x128) ![0, 0] S400x128.size inb).toLoadRect (h.unread x) = x :=
  readAt_whole mr h x zero2 inb

/-! ## The three row slabs of the [1, 257, 128] weight block -/

section slabs

variable (mr : Memref sig .tc .vmem S1x257x128 .f32) (h : mr.IsWhole) (x : Vec F S1x257x128 .f32)

/-- Rows 0 … 127: entry (0, k, j) of the load is entry (0, k, j) of the block. -/
theorem readAt_slab0 (inb : ∀ a, (![0, 0, 0] : Fin 3 → ℕ) a + S1x128x128.size a ≤ S1x257x128.size a)
    (k : Fin 128) (j : Fin 128) :
    View.readAt (Elt F) mr.view (Rect.unit (s := S1x257x128) ![0, 0, 0] S1x128x128.size inb).toLoadRect (h.unread x)
        (ix3 (0 : Fin 1) k j)
      = x (ix3 (0 : Fin 1) (⟨0 + k.val, by omega⟩ : Fin 257) j) :=
  (h.readAt_unread x _ _).trans (congrArg x (funext fun a => Fin.ext (by
    match a with
    | ⟨0, _⟩ => rfl
    | ⟨1, _⟩ => show 0 + 1 * k.val = 0 + k.val; omega
    | ⟨2, _⟩ => show 0 + 1 * j.val = j.val; omega)))

/-- Rows 0 … 127 again, with the row written without the zero offset. -/
theorem readAt_slab0_row (inb : ∀ a, (![0, 0, 0] : Fin 3 → ℕ) a + S1x128x128.size a ≤ S1x257x128.size a)
    (k : Fin 128) (j : Fin 128) :
    View.readAt (Elt F) mr.view (Rect.unit (s := S1x257x128) ![0, 0, 0] S1x128x128.size inb).toLoadRect (h.unread x)
        (ix3 (0 : Fin 1) k j)
      = x (ix3 (0 : Fin 1) (⟨k.val, by omega⟩ : Fin 257) j) :=
  (h.readAt_unread x _ _).trans (congrArg x (funext fun a => Fin.ext (by
    match a with
    | ⟨0, _⟩ => rfl
    | ⟨1, _⟩ => show 0 + 1 * k.val = k.val; omega
    | ⟨2, _⟩ => show 0 + 1 * j.val = j.val; omega)))

/-- Rows 128 … 255: entry (0, k, j) of the load is entry (0, 128 + k, j) of the block. -/
theorem readAt_slab128 (inb : ∀ a, (![0, 128, 0] : Fin 3 → ℕ) a + S1x128x128.size a ≤ S1x257x128.size a)
    (k : Fin 128) (j : Fin 128) :
    View.readAt (Elt F) mr.view (Rect.unit (s := S1x257x128) ![0, 128, 0] S1x128x128.size inb).toLoadRect (h.unread x)
        (ix3 (0 : Fin 1) k j)
      = x (ix3 (0 : Fin 1) (⟨128 + k.val, by omega⟩ : Fin 257) j) :=
  (h.readAt_unread x _ _).trans (congrArg x (funext fun a => Fin.ext (by
    match a with
    | ⟨0, _⟩ => rfl
    | ⟨1, _⟩ => show 128 + 1 * k.val = 128 + k.val; omega
    | ⟨2, _⟩ => show 0 + 1 * j.val = j.val; omega)))

/-- Row 256: entry (0, k, j) of the load, k the one row, is entry (0, 256 + k, j) of the block. -/
theorem readAt_slab256 (inb : ∀ a, (![0, 256, 0] : Fin 3 → ℕ) a + S1x1x128.size a ≤ S1x257x128.size a)
    (k : Fin 1) (j : Fin 128) :
    View.readAt (Elt F) mr.view (Rect.unit (s := S1x257x128) ![0, 256, 0] S1x1x128.size inb).toLoadRect (h.unread x)
        (ix3 (0 : Fin 1) k j)
      = x (ix3 (0 : Fin 1) (⟨256 + k.val, by omega⟩ : Fin 257) j) :=
  (h.readAt_unread x _ _).trans (congrArg x (funext fun a => Fin.ext (by
    match a with
    | ⟨0, _⟩ => rfl
    | ⟨1, _⟩ => show 256 + 1 * k.val = 256 + k.val; omega
    | ⟨2, _⟩ => show 0 + 1 * j.val = j.val; omega)))

end slabs

/-! ## Blocks of rows of the [10000, 129] table at a row offset given by an equation -/

section rows

variable (mr : Memref sig .tc .vmem S10000x129 .bf16) (h : mr.IsWhole) (x : Vec F S10000x129 .bf16)

/-- The last row of a block of 400 rows from row o lies in the table. -/
theorem row_lt {off : Fin 2 → ℕ} {size : Fin 2 → ℕ} (inb : ∀ a, off a + size a ≤ S10000x129.size a) {o c : ℕ}
    (hoff : off = ![o, c]) (hsize : size 0 = 400) (p : Fin 400) : o + p.val < 10000 := by
  have h0 : off 0 + size 0 ≤ 10000 := inb 0
  subst hoff
  have h1 : o + size 0 ≤ 10000 := h0
  omega

/-- 400 rows, columns 0 … 127, from row o: entry (p, k) of the load is entry (o + p, k) of the table. -/
theorem readAt_rows (off : Fin 2 → ℕ) (inb : ∀ a, off a + S400x128.size a ≤ S10000x129.size a) (o : ℕ)
    (hoff : off = ![o, 0]) (p : Fin 400) (k : Fin 128) :
    View.readAt (Elt F) mr.view (Rect.unit (s := S10000x129) off S400x128.size inb).toLoadRect (h.unread x) (ix2 p k)
      = x (ix2 (⟨o + p.val, row_lt inb hoff rfl p⟩ : Fin 10000) (⟨k.val, by omega⟩ : Fin 129)) := by
  subst hoff
  exact (h.readAt_unread x _ _).trans (congrArg x (funext fun a => Fin.ext (by
    match a with
    | ⟨0, _⟩ => show o + 1 * p.val = o + p.val; omega
    | ⟨1, _⟩ => show 0 + 1 * k.val = k.val; omega)))

/-- 400 rows of the last column, from row o: entry (p, z) of the load, z the one column, is entry (o + p, 128)
    of the table. -/
theorem readAt_col (off : Fin 2 → ℕ) (inb : ∀ a, off a + S400x1.size a ≤ S10000x129.size a) (o : ℕ)
    (hoff : off = ![o, 128]) (p : Fin 400) (z : Fin 1) :
    View.readAt (Elt F) mr.view (Rect.unit (s := S10000x129) off S400x1.size inb).toLoadRect (h.unread x) (ix2 p z)
      = x (ix2 (⟨o + p.val, row_lt inb hoff rfl p⟩ : Fin 10000) (⟨128 + z.val, by omega⟩ : Fin 129)) := by
  subst hoff
  exact (h.readAt_unread x _ _).trans (congrArg x (funext fun a => Fin.ext (by
    match a with
    | ⟨0, _⟩ => show o + 1 * p.val = o + p.val; omega
    | ⟨1, _⟩ => show 128 + 1 * z.val = 128 + z.val; omega)))

end rows

end Cert.KernelIdeal.Loads

end
-- ==== Proof.BlockValue.lean ====
/-
  The kernel's stores read as the specification's layer, at the ideal instance.

  A point's block arithmetic (the payloads) is the layer formula over the block's loads; once each load is identified
  entry by entry with a global array — the adjacency rows of the block, the feature table whose last column is ones,
  the weight slab's three parts — the block's entry (p, j) is the specification's layer at the global row and j.
-/
import proofs.«138432_g21534966022541_cont_8to1_1342_19_alg».proof.Proof.Frame
import proofs.«138432_g21534966022541_cont_8to1_1342_19_alg».proof.Proof.BodyMath
import proofs.«138432_g21534966022541_cont_8to1_1342_19_alg».proof.Proof.Loads
import proofs.«138432_g21534966022541_cont_8to1_1342_19_alg».proof.Proof.Spec
import Idealize.ShloMosaic.Lib.WritesUnit
import Idealize.ShloMosaic.Lib.ValueIdx

set_option maxRecDepth 16384

noncomputable section

open scoped BigOperators

namespace Cert.KernelIdeal.HandValue

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Cert.KernelIdeal.BodyMath
open Idealize.ShloMosaic.ValueIdx Cert.SageSpec

/-- The block formula is the layer formula once the block's loads are the global arrays' entries: the degree column of
    the table is ones, so the augmented product's last column is the plain row sum of the adjacency. -/
theorem blockLayer_eq_layer (A : S400x10000.Idx → EReal) (Ws Wn : S1x128x128.Idx → EReal) (b : S1x1x128.Idx → EReal)
    (T : S10000x129.Idx → EReal) (Xs : S400x128.Idx → EReal)
    (gA : Fin 10000 → Fin 10000 → EReal) (gX : Fin 10000 → Fin 128 → EReal) (gWs gWn : Fin 128 → Fin 128 → EReal)
    (gb : Fin 128 → EReal) (r : Fin 10000) (p : Fin 400)
    (hA : ∀ q, A (ix2 p q) = gA r q) (hT : ∀ q k, T (ix2 q (col k)) = gX q k) (hT1 : ∀ q, T (ix2 q c128) = 1)
    (hXs : ∀ k, Xs (ix2 p k) = gX r k)
    (hWs : ∀ k j, Ws (ix3 (0 : Fin 1) k j) = gWs k j) (hWn : ∀ k j, Wn (ix3 (0 : Fin 1) k j) = gWn k j)
    (hb : ∀ j, b (ix3 (0 : Fin 1) (0 : Fin 1) j) = gb j) (j : Fin 128) :
    blockLayer A Ws Wn b T Xs p j = layer eps gA gX gWs gWn gb r j := by
  rw [blockLayer_of_ones A Ws Wn b T Xs hT1 p j]
  unfold layer neigh deg
  simp only [hA, hT, hXs, hWs, hWn, hb]

variable (c : Dev nD)

/-- A layer-2 point's output block at (p, j): the layer formula over the carried table. -/
theorem outB_layer (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : ¬ k0_cond1 i = 1#1) (hc2 : k0_cond2 i = 1#1)
    (x0 : Vec Ideal S400x10000 .f32) (x2 : Vec Ideal S1x257x128 .f32) (xs : Vec Ideal S10000x129 .bf16)
    (o : ℕ) (ho : k0_off3 i = ![o, 0])
    (gA : Fin 10000 → Fin 10000 → EReal) (gX : Fin 10000 → Fin 128 → EReal) (gWs gWn : Fin 128 → Fin 128 → EReal)
    (gb : Fin 128 → EReal) (r : Fin 10000) (p : Fin 400) (hr : r.val = o + p.val)
    (hA : ∀ q, x0 (ix2 p q) = gA r q) (hT : ∀ q k, xs (ix2 q (col k)) = gX q k) (hT1 : ∀ q, xs (ix2 q c128) = 1)
    (hWs : ∀ (k : Fin 128) j, x2 (ix3 (0 : Fin 1) (⟨k.val, by omega⟩ : Fin 257) j) = gWs k j)
    (hWn : ∀ (k : Fin 128) j, x2 (ix3 (0 : Fin 1) (⟨128 + k.val, by omega⟩ : Fin 257) j) = gWn k j)
    (hb : ∀ j, x2 (ix3 (0 : Fin 1) (⟨256, by omega⟩ : Fin 257) j) = gb j) (j : Fin 128) :
    outB (F := Ideal) c i arg2 harg2 arg3 harg3 arg4 harg4 arg5 harg5 arg6 harg6 hc1 hc2 x0 x2 xs (ix2 p j)
      = layer eps gA gX gWs gWn gb r j := by
  obtain ⟨rv, hrlt⟩ := r
  dsimp only at hr
  subst hr
  unfold outB kernelRunB; dsimp only
  refine (View.read_writes_cons_unit_of_mem VO VO.junk (size := ![400, 128]) _ _ [] (ix2 p j) (ix2 p j) rfl
    (fun a => by match a with | ⟨0, _⟩ => simp | ⟨1, _⟩ => simp)).trans ?_
  rw [pay8_apply]
  refine blockLayer_eq_layer _ _ _ _ _ _ gA gX gWs gWn gb _ p ?_ ?_ ?_ ?_ ?_ ?_ ?_ j
  · intro q; rw [Loads.readAt_whole_S400x10000]; exact hA q
  · intro q k; rw [Loads.readAt_whole_S10000x129]; exact hT q k
  · intro q; rw [Loads.readAt_whole_S10000x129]; exact hT1 q
  · intro k
    rw [Loads.readAt_rows arg6 harg6 xs _ _ o ho p k]
    exact hT _ k
  · intro k j; rw [Loads.readAt_slab0_row]; exact hWs k j
  · intro k j; rw [Loads.readAt_slab128]; exact hWn k j
  · intro j; rw [Loads.readAt_slab256]; exact hb j

/-- The table a layer-1 point writes (over anything), at a row of its block and a feature column: the hidden feature
    max (layer) zero — the store narrows a value that at the ideal instance is unchanged. -/
theorem tabA_feature (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec Ideal S400x10000 .f32) (x1 : Vec Ideal S10000x129 .bf16) (x2 : Vec Ideal S1x257x128 .f32)
    (o : ℕ) (ho1 : k0_off1 i = ![o, 0]) (ho2 : k0_off2 i = ![o, 128])
    (gA : Fin 10000 → Fin 10000 → EReal) (gX : Fin 10000 → Fin 128 → EReal) (gWs gWn : Fin 128 → Fin 128 → EReal)
    (gb : Fin 128 → EReal) (r : Fin 10000) (p : Fin 400) (hr : r.val = o + p.val)
    (hA : ∀ q, x0 (ix2 p q) = gA r q) (hT : ∀ q k, x1 (ix2 q (col k)) = gX q k) (hT1 : ∀ q, x1 (ix2 q c128) = 1)
    (hWs : ∀ (k : Fin 128) j, x2 (ix3 (0 : Fin 1) (⟨k.val, by omega⟩ : Fin 257) j) = gWs k j)
    (hWn : ∀ (k : Fin 128) j, x2 (ix3 (0 : Fin 1) (⟨128 + k.val, by omega⟩ : Fin 257) j) = gWn k j)
    (hb : ∀ j, x2 (ix3 (0 : Fin 1) (⟨256, by omega⟩ : Fin 257) j) = gb j) (k : Fin 128) :
    VS.read (Elt Ideal) (VS.writes (Elt Ideal) VS.junk
        (kernelRunA (F := Ideal) c i arg2 harg2 arg3 harg3 arg4 harg4 arg5 harg5 arg6 harg6 hc1 hc2 x0 x1 x2).2.1) (ix2 r (col k))
      = SageSpec.hidden eps zero gA gX gWs gWn gb r k := by
  obtain ⟨rv, hrlt⟩ := r
  dsimp only at hr
  subst hr
  unfold kernelRunA; dsimp only
  rw [View.read_writes_cons_unit_of_not_mem VS VS.junk _ _ _ _ ho2 (1 : Fin 2) (Or.inl (by simp))]
  refine (View.read_writes_cons_unit_of_mem VS VS.junk (size := ![400, 128]) _ _ [] _ (ix2 p k) ho1
    (fun a => by match a with | ⟨0, _⟩ => simp | ⟨1, _⟩ => simp)).trans ?_
  rw [pay6_apply, pay5_apply]
  unfold SageSpec.hidden
  congr 1
  refine blockLayer_eq_layer _ _ _ _ _ _ gA gX gWs gWn gb _ p ?_ ?_ ?_ ?_ ?_ ?_ ?_ k
  · intro q; rw [Loads.readAt_whole_S400x10000]; exact hA q
  · intro q k; rw [Loads.readAt_whole_S10000x129]; exact hT q k
  · intro q; rw [Loads.readAt_whole_S10000x129]; exact hT1 q
  · intro k
    rw [Loads.readAt_rows arg3 harg3 x1 _ _ o ho1 p k]
    exact hT _ k
  · intro k j; rw [Loads.readAt_slab0_row]; exact hWs k j
  · intro k j; rw [Loads.readAt_slab128]; exact hWn k j
  · intro j; rw [Loads.readAt_slab256]; exact hb j

/-- The same table at a row of the block and the last column: one. -/
theorem tabA_one (i : grid0.Coords) (arg2 : Memref sig .tc .vmem S400x10000 .f32) (harg2 : arg2.IsWhole) (arg3 : Memref sig .tc .vmem S10000x129 .bf16) (harg3 : arg3.IsWhole) (arg4 : Memref sig .tc .vmem S1x257x128 .f32) (harg4 : arg4.IsWhole) (arg5 : Memref sig .tc .vmem S400x128 .f32) (harg5 : arg5.IsWhole) (arg6 : Memref sig .tc .vmem S10000x129 .bf16) (harg6 : arg6.IsWhole)
    (hc1 : k0_cond1 i = 1#1) (hc2 : ¬ k0_cond2 i = 1#1)
    (x0 : Vec Ideal S400x10000 .f32) (x1 : Vec Ideal S10000x129 .bf16) (x2 : Vec Ideal S1x257x128 .f32)
    (o : ℕ) (ho2 : k0_off2 i = ![o, 128]) (r : Fin 10000) (p : Fin 400) (hr : r.val = o + p.val) :
    VS.read (Elt Ideal) (VS.writes (Elt Ideal) VS.junk
        (kernelRunA (F := Ideal) c i arg2 harg2 arg3 harg3 arg4 harg4 arg5 harg5 arg6 harg6 hc1 hc2 x0 x1 x2).2.1) (ix2 r c128)
      = 1 := by
  obtain ⟨rv, hrlt⟩ := r
  dsimp only at hr
  subst hr
  unfold kernelRunA; dsimp only
  refine (View.read_writes_cons_unit_of_mem VS VS.junk (size := ![400, 1]) _ _ _ _ (ix2 p (0 : Fin 1)) ho2
    (fun a => by match a with | ⟨0, _⟩ => simp | ⟨1, _⟩ => simp)).trans ?_
  exact pay7_apply p

end Cert.KernelIdeal.HandValue

end
-- ==== Proof.EntryValues.lean ====
/-
  What the region finds in its windows' arrays, read at an index, at the ideal instance.

  Before the region the host packs two arrays: the feature table [X | 1], the features narrowed with a column of
  ones appended, and the weights as two slabs [Ws; Wn; b], one per layer, each the upper and lower halves of the layer's
  256-row weight matrix over its bias as a last row. Each packed array is read here entry by entry as an entry of an
  argument array, and each input window's block at a grid point as entries of its array: the adjacency window holds
  rows 400 (t mod 25) .. of the adjacency, the table window the whole table, the weight window the slab of layer t / 25.
-/
import proofs.«138432_g21534966022541_cont_8to1_1342_19_alg».proof.Proof.FrameBase
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Entry

open Idealize.ShloMosaic Idealize.ShloMosaic.TcCoe Idealize.SL.Sem Idealize.ShloMosaic.StableHlo
open Cert.KernelIdeal Cert.KernelIdeal.Gen Cert.KernelIdeal.Hand Idealize.ShloMosaic.ValueIdx

variable (m : (ℓ : Loc nD τ sig) → Buf (Elt Ideal) ℓ) (c : Dev nD)

/-! ## A three-operand host operation's result with each operand at its own reference -/

section Nary3
variable {τ' : Topo} {sig' : RefSig} {Val : EltTy → Type} {x a b y : Ref sig' .tc}

/-- The result of a host operation over a literal family of three references, each operand's contents read at its
    own reference. -/
theorem nary3_result
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

/-- The host lines' results, one at a time, a three-operand line's operands each at its own reference. -/
macro "host_results" : tactic =>
  `(tactic| (simp only [after_cons, after_nil]
             repeat (first
               | rw [nullary_result] | rw [unary_result] | rw [binary_result]
               | rw [reshape_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide)
               | rw [nary3_result])))

/-! ## The packed feature table -/

section Layout
variable {α : Type}

/-- Columns 0..127 of [X | y] are X. -/
theorem tableL_apply (x₁ : S10000x128.Idx → α) (x₂ : S10000x1.Idx → α) (q : Fin 10000) (k : Fin 129) (h : k.val < 128) :
    concatenate S10000x129 1 [⟨S10000x128, x₁⟩, ⟨S10000x1, x₂⟩] concatenates_S10000x128_S10000x1_S10000x129_d1 (ix2 q k)
      = x₁ (ix2 q ⟨k.val, h⟩) :=
  concatenate_pair_apply_left (t := S10000x129) (s₁ := S10000x128) (s₂ := S10000x1) 1 x₁ x₂
    concatenates_S10000x128_S10000x1_S10000x129_d1 (ix2 q k) rfl (ix2 q ⟨k.val, h⟩)
    (fun b => match b with | ⟨0, _⟩ => rfl | ⟨1, _⟩ => rfl)

/-- Column 128 of [X | y] is y. -/
theorem tableR_apply (x₁ : S10000x128.Idx → α) (x₂ : S10000x1.Idx → α) (q : Fin 10000) (k : Fin 129) (h : ¬ k.val < 128) :
    concatenate S10000x129 1 [⟨S10000x128, x₁⟩, ⟨S10000x1, x₂⟩] concatenates_S10000x128_S10000x1_S10000x129_d1 (ix2 q k)
      = x₂ (ix2 q (0 : Fin 1)) :=
  concatenate_pair_apply_right (t := S10000x129) (s₁ := S10000x128) (s₂ := S10000x1) 1 x₁ x₂
    concatenates_S10000x128_S10000x1_S10000x129_d1 (ix2 q k) rfl rfl (ix2 q (0 : Fin 1))
    (fun b => match b with | ⟨0, _⟩ => fun _ => rfl | ⟨1, _⟩ => fun hb => absurd rfl hb)
    (by show 0 + 128 = k.val
        have := k.isLt; omega)

end Layout

/-- The table the region reads is the features narrowed, with a column of the bf16 word 0x3F80 appended. -/
theorem V_v2 : (V m c main_v2 : S10000x129.Idx → EReal)
    = concatenate S10000x129 1 [⟨S10000x128, truncf .bf16 (m ((c : Thread nD τ).loc main_arg0)) bitsLt_bf16_f32⟩,
        ⟨S10000x1, broadcastInDim S10000x1 ![] bcast_S_S10000x1 (constant (F := Ideal) S_ .bf16 0x3F80#16)⟩]
        concatenates_S10000x128_S10000x1_S10000x129_d1 := by
  dsimp only [V, V0, hostOps0]
  simp only [List.flatten_cons, List.flatten_nil, List.append_nil]
  after_results

/-- The bf16 word 0x3F80 is 1. -/
theorem one_bf16 : Ideal.ofBits .bf16 0x3F80#16 = 1 := by
  simp [Ideal.ofBits, Ideal.ieee, -EReal.coe_mul]; norm_num

/-- The table at (q, k): feature k of node q for k < 128, and 1 in the last column. -/
theorem v2_apply (q : Fin 10000) (k : Fin 129) :
    (V m c main_v2 : S10000x129.Idx → EReal) (ix2 q k)
      = if h : k.val < 128 then (m ((c : Thread nD τ).loc main_arg0) : S10000x128.Idx → EReal) (ix2 q ⟨k.val, h⟩)
        else (1 : EReal) := by
  rw [V_v2]
  split
  · next h => exact tableL_apply _ _ q k h
  · next h =>
    refine (tableR_apply _ _ q k h).trans ?_
    refine (broadcastInDim_apply _ bcast_S_S10000x1 _ (ix2 q (0 : Fin 1)) ix0 (fun a => a.elim0)).trans ?_
    exact one_bf16

/-! ## The packed weights -/

section Slab
variable {α : Type}

/-- Rows 0..127 of [Ws; Wn; b] are the first piece. -/
theorem stack0_apply (x₁ x₂ : S128x128.Idx → α) (x₃ : S1x128.Idx → α) (a : Fin 257) (j : Fin 128) (h : a.val < 128) :
    concatenate S257x128 0 [⟨S128x128, x₁⟩, ⟨S128x128, x₂⟩, ⟨S1x128, x₃⟩] concatenates_S128x128_S128x128_S1x128_S257x128_d0 (ix2 a j)
      = x₁ (ix2 ⟨a.val, h⟩ j) :=
  concatenate_apply_piece (t := S257x128) 0 [⟨S128x128, x₁⟩, ⟨S128x128, x₂⟩, ⟨S1x128, x₃⟩]
    concatenates_S128x128_S128x128_S1x128_S257x128_d0 (ix2 a j) 0 (by show (0 : Nat) < 3; omega) S128x128 x₁ rfl rfl 0 rfl
    (ix2 ⟨a.val, h⟩ j) (fun b => match b with | ⟨0, _⟩ => fun hb => absurd rfl hb | ⟨1, _⟩ => fun _ => rfl)
    (by show 0 + a.val = a.val
        omega)

/-- Rows 128..255 are the second piece. -/
theorem stack1_apply (x₁ x₂ : S128x128.Idx → α) (x₃ : S1x128.Idx → α) (a : Fin 257) (j : Fin 128)
    (h0 : 128 ≤ a.val) (h : a.val < 256) :
    concatenate S257x128 0 [⟨S128x128, x₁⟩, ⟨S128x128, x₂⟩, ⟨S1x128, x₃⟩] concatenates_S128x128_S128x128_S1x128_S257x128_d0 (ix2 a j)
      = x₂ (ix2 ⟨a.val - 128, by omega⟩ j) :=
  concatenate_apply_piece (t := S257x128) 0 [⟨S128x128, x₁⟩, ⟨S128x128, x₂⟩, ⟨S1x128, x₃⟩]
    concatenates_S128x128_S128x128_S1x128_S257x128_d0 (ix2 a j) 1 (by show (1 : Nat) < 3; omega) S128x128 x₂ rfl rfl 128 rfl
    (ix2 ⟨a.val - 128, by omega⟩ j) (fun b => match b with | ⟨0, _⟩ => fun hb => absurd rfl hb | ⟨1, _⟩ => fun _ => rfl)
    (by show 128 + (a.val - 128) = a.val
        omega)

/-- Row 256 is the third piece's one row. -/
theorem stack2_apply (x₁ x₂ : S128x128.Idx → α) (x₃ : S1x128.Idx → α) (a : Fin 257) (j : Fin 128) (h : ¬ a.val < 256) :
    concatenate S257x128 0 [⟨S128x128, x₁⟩, ⟨S128x128, x₂⟩, ⟨S1x128, x₃⟩] concatenates_S128x128_S128x128_S1x128_S257x128_d0 (ix2 a j)
      = x₃ (ix2 (0 : Fin 1) j) :=
  concatenate_apply_piece (t := S257x128) 0 [⟨S128x128, x₁⟩, ⟨S128x128, x₂⟩, ⟨S1x128, x₃⟩]
    concatenates_S128x128_S128x128_S1x128_S257x128_d0 (ix2 a j) 2 (by show (2 : Nat) < 3; omega) S1x128 x₃ rfl rfl 256 rfl
    (ix2 (0 : Fin 1) j) (fun b => match b with | ⟨0, _⟩ => fun hb => absurd rfl hb | ⟨1, _⟩ => fun _ => rfl)
    (by show 256 + 0 = a.val
        have := a.isLt; omega)

/-- One layer's slab: the upper and lower halves of its weight matrix over its bias as a row, with a unit axis in
    front. -/
def slab (W : S256x128.Idx → α) (b : S128.Idx → α) : S1x257x128.Idx → α :=
  broadcastInDim S1x257x128 ![1, 2] bcast_S257x128_S1x257x128_1_2
    (concatenate S257x128 0 [⟨S128x128, extractStridedSlice S128x128 ![0, 0] W slices_S256x128_S128x128_0_0⟩,
      ⟨S128x128, extractStridedSlice S128x128 ![128, 0] W slices_S256x128_S128x128_128_0⟩,
      ⟨S1x128, shapeCast S1x128 b shapeCasts_S128_S1x128⟩] concatenates_S128x128_S128x128_S1x128_S257x128_d0)

/-- The slab at (0, a, j): row a of the weight matrix for a < 256, and the bias in row 256. -/
theorem slab_apply (W : S256x128.Idx → α) (b : S128.Idx → α) (u : Fin 1) (a : Fin 257) (j : Fin 128) :
    slab W b (ix3 u a j) = if h : a.val < 256 then W (ix2 ⟨a.val, h⟩ j) else b (ix1 j) := by
  unfold slab
  refine (broadcastInDim_apply _ bcast_S257x128_S1x257x128_1_2 _ (ix3 u a j) (ix2 a j) (fun ax => match ax with
    | ⟨0, _⟩ => by show a.val = if (257 : Nat) = 1 then 0 else a.val; rw [if_neg (by decide)]
    | ⟨1, _⟩ => by show j.val = if (128 : Nat) = 1 then 0 else j.val; rw [if_neg (by decide)])).trans ?_
  split
  · next h =>
    by_cases h1 : a.val < 128
    · exact (stack0_apply _ _ _ a j h1).trans
        (slice2_axis0_apply 0 W slices_S256x128_S128x128_0_0 ⟨a.val, h1⟩ j ⟨a.val, h⟩ (Nat.zero_add _).symm)
    · exact (stack1_apply _ _ _ a j (by omega) h).trans
        (slice2_axis0_apply 128 W slices_S256x128_S128x128_128_0 ⟨a.val - 128, by omega⟩ j ⟨a.val, h⟩
          (by show a.val = 128 + (a.val - 128)
              omega))
  · next h =>
    exact (stack2_apply _ _ _ a j h).trans (shapeCast_a_1a_apply b shapeCasts_S128_S1x128 (0 : Fin 1) j)

/-- Slab 0 of a stack of two. -/
theorem pair0_apply (x₁ x₂ : S1x257x128.Idx → α) (l : Fin 2) (a : Fin 257) (j : Fin 128) (h : l.val = 0) :
    concatenate S2x257x128 0 [⟨S1x257x128, x₁⟩, ⟨S1x257x128, x₂⟩] concatenates_S1x257x128_S1x257x128_S2x257x128_d0 (ix3 l a j)
      = x₁ (ix3 (0 : Fin 1) a j) :=
  concatenate_pair_apply_left (t := S2x257x128) (s₁ := S1x257x128) (s₂ := S1x257x128) 0 x₁ x₂
    concatenates_S1x257x128_S1x257x128_S2x257x128_d0 (ix3 l a j) rfl (ix3 (0 : Fin 1) a j)
    (fun b => match b with | ⟨0, _⟩ => h.symm | ⟨1, _⟩ => rfl | ⟨2, _⟩ => rfl)

/-- Slab 1 of a stack of two. -/
theorem pair1_apply (x₁ x₂ : S1x257x128.Idx → α) (l : Fin 2) (a : Fin 257) (j : Fin 128) (h : ¬ l.val = 0) :
    concatenate S2x257x128 0 [⟨S1x257x128, x₁⟩, ⟨S1x257x128, x₂⟩] concatenates_S1x257x128_S1x257x128_S2x257x128_d0 (ix3 l a j)
      = x₂ (ix3 (0 : Fin 1) a j) :=
  concatenate_pair_apply_right (t := S2x257x128) (s₁ := S1x257x128) (s₂ := S1x257x128) 0 x₁ x₂
    concatenates_S1x257x128_S1x257x128_S2x257x128_d0 (ix3 l a j) rfl rfl (ix3 (0 : Fin 1) a j)
    (fun b => match b with | ⟨0, _⟩ => fun hb => absurd rfl hb | ⟨1, _⟩ => fun _ => rfl | ⟨2, _⟩ => fun _ => rfl)
    (by show 0 + 1 = l.val
        have := l.isLt; omega)

end Slab

/-- The weights the region reads are the two layers' slabs, layer 1's first. -/
theorem V_v13 : (V m c main_v13 : S2x257x128.Idx → EReal)
    = concatenate S2x257x128 0
        [⟨S1x257x128, slab (m ((c : Thread nD τ).loc main_arg2) : S256x128.Idx → EReal) (m ((c : Thread nD τ).loc main_arg3) : S128.Idx → EReal)⟩,
         ⟨S1x257x128, slab (m ((c : Thread nD τ).loc main_arg4) : S256x128.Idx → EReal) (m ((c : Thread nD τ).loc main_arg5) : S128.Idx → EReal)⟩]
        concatenates_S1x257x128_S1x257x128_S2x257x128_d0 := by
  dsimp only [V, V0, hostOps0]
  simp only [List.flatten_cons, List.flatten_nil, List.append_nil]
  host_results
  rfl

/-- The weights at (l, a, j): row a of layer l's weight matrix for a < 256, and layer l's bias in row 256. -/
theorem v13_apply (l : Fin 2) (a : Fin 257) (j : Fin 128) :
    (V m c main_v13 : S2x257x128.Idx → EReal) (ix3 l a j)
      = if h : a.val < 256
        then (if l.val = 0 then (m ((c : Thread nD τ).loc main_arg2) : S256x128.Idx → EReal)
              else (m ((c : Thread nD τ).loc main_arg4) : S256x128.Idx → EReal)) (ix2 ⟨a.val, h⟩ j)
        else (if l.val = 0 then (m ((c : Thread nD τ).loc main_arg3) : S128.Idx → EReal)
              else (m ((c : Thread nD τ).loc main_arg5) : S128.Idx → EReal)) (ix1 j) := by
  rw [V_v13]
  by_cases hl : l.val = 0
  · rw [pair0_apply _ _ l a j hl, slab_apply, if_pos hl, if_pos hl]
  · rw [pair1_apply _ _ l a j hl, slab_apply, if_neg hl, if_neg hl]

/-! ## The windows' blocks -/

/-- The printed index maps over the grid: the adjacency window moves with the row block, the table window stays, the
    weight window moves with the layer. -/
theorem idx_facts : ∀ t : Fin cfg0.N,
    win0_0.index t (0 : Fin 2) = t.val % 25 ∧ win0_0.index t (1 : Fin 2) = 0
    ∧ win0_1.index t (0 : Fin 2) = 0 ∧ win0_1.index t (1 : Fin 2) = 0
    ∧ win0_2.index t (0 : Fin 3) = t.val / 25 ∧ win0_2.index t (1 : Fin 3) = 0 ∧ win0_2.index t (2 : Fin 3) = 0 :=
  (by decide +kernel : ∀ t : Fin grid0.N, _)

/-- The grid has 50 points. -/
theorem point_lt (t : Fin cfg0.N) : t.val < 50 := lt_of_lt_of_eq t.isLt N_0

/-- Window 0's block at point t is rows 400 (t mod 25) .. of the adjacency. -/
theorem iblk0_apply (t : Fin cfg0.N) (p : Fin 400) (q : Fin 10000) :
    iblk m c 0 t (ix2 p q)
      = (V m c main_arg1 : S10000x10000.Idx → EReal) (ix2 ⟨400 * (t.val % 25) + p.val, by have := p.isLt; omega⟩ q) := by
  obtain ⟨e0, e1, -, -, -, -, -⟩ := idx_facts t
  show (V m c main_arg1 : S10000x10000.Idx → EReal) (((cfg0.win 0).blk t).view.emb (ix2 p q)) = _
  refine congrArg (V m c main_arg1 : S10000x10000.Idx → EReal) (funext fun a => Fin.ext ?_)
  match a with
  | ⟨0, _⟩ =>
    show win0_0.index t (0 : Fin 2) * 400 + 1 * p.val = 400 * (t.val % 25) + p.val
    omega
  | ⟨1, _⟩ =>
    show win0_0.index t (1 : Fin 2) * 10000 + 1 * q.val = q.val
    omega

/-- Window 1's block is the whole table at every point. -/
theorem iblk1_eq (t : Fin cfg0.N) : iblk m c 1 t = (V m c main_v2 : S10000x129.Idx → EReal) := by
  obtain ⟨-, -, e0, e1, -, -, -⟩ := idx_facts t
  funext j
  show (V m c main_v2 : S10000x129.Idx → EReal) (((cfg0.win 1).blk t).view.emb j) = _
  refine congrArg (V m c main_v2 : S10000x129.Idx → EReal) (funext fun a => Fin.ext ?_)
  match a with
  | ⟨0, _⟩ =>
    show win0_1.index t (0 : Fin 2) * 10000 + 1 * (j 0).val = (j 0).val
    omega
  | ⟨1, _⟩ =>
    show win0_1.index t (1 : Fin 2) * 129 + 1 * (j 1).val = (j 1).val
    omega

/-- Window 2's block at point t is the weight slab of layer t / 25. -/
theorem iblk2_apply (t : Fin cfg0.N) (a : Fin 257) (j : Fin 128) :
    iblk m c 2 t (ix3 (0 : Fin 1) a j)
      = (V m c main_v13 : S2x257x128.Idx → EReal) (ix3 ⟨t.val / 25, by have := point_lt t; omega⟩ a j) := by
  obtain ⟨-, -, -, -, e0, e1, e2⟩ := idx_facts t
  show (V m c main_v13 : S2x257x128.Idx → EReal) (((cfg0.win 2).blk t).view.emb (ix3 (0 : Fin 1) a j)) = _
  refine congrArg (V m c main_v13 : S2x257x128.Idx → EReal) (funext fun b => Fin.ext ?_)
  match b with
  | ⟨0, _⟩ =>
    show win0_2.index t (0 : Fin 3) * 1 + 1 * 0 = t.val / 25
    omega
  | ⟨1, _⟩ =>
    show win0_2.index t (1 : Fin 3) * 257 + 1 * a.val = a.val
    omega
  | ⟨2, _⟩ =>
    show win0_2.index t (2 : Fin 3) * 128 + 1 * j.val = j.val
    omega

end Cert.KernelIdeal.Entry

end
-- ==== Proof.Blocks.lean ====
/-
  From the output blocks to the output array.

  The grid's 50 points run row-major over 2 x 25. The output window's block index is (i * l, 0) at the point of
  layer l and row block i: at the 25 layer-1 points it is 0 and nothing is written back; at the layer-2 point
  t = 25 + b the block index is b and the [400, 128] block is written back to rows 400 b .. 400 b + 399 of the
  [10000, 128] output array. So if what the body leaves at each layer-2 point is, entry by entry, one function G of
  the array's index read at those rows, the array ends holding G: the 25 written blocks tile the array, row r lying
  in the block of point 25 + r / 400.
-/
import proofs.«138432_g21534966022541_cont_8to1_1342_19_alg».proof.Proof.Frame
import Idealize.ShloMosaic.Lib.Pipeline.Value
import Idealize.ShloMosaic.Lib.ValueIdx

noncomputable section

namespace Cert.KernelIdeal.Blocks

open Cert.KernelIdeal Cert.KernelIdeal.Gen Cert.KernelIdeal.Hand Idealize.ShloMosaic Idealize.ShloMosaic.TcCoe
  Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The schedule of the output window, decided once over the grid -/

/-- The output block is written back exactly at the layer-2 points, and there its block index is (t - 25, 0). -/
theorem sched : ∀ t : Fin cfg0.N, ((cfg0.win 3).flush t = true ↔ 25 ≤ t.val)
    ∧ (25 ≤ t.val → win0_3.index t (0 : Fin 2) = t.val - 25 ∧ win0_3.index t (1 : Fin 2) = 0) :=
  (by decide +kernel : ∀ t : Fin grid0.N, (win0_3.flush t = true ↔ 25 ≤ t.val)
    ∧ (25 ≤ t.val → win0_3.index t (0 : Fin 2) = t.val - 25 ∧ win0_3.index t (1 : Fin 2) = 0))

/-- Row p of the block of point t is a row of the array. -/
theorem row_lt (t : Fin cfg0.N) (p : Fin 400) : 400 * (t.val - 25) + p.val < 10000 := by
  have hN : cfg0.N = 50 := N_0
  have h1 := t.isLt
  have h2 := p.isLt
  omega

/-! ## What a layer-2 point writes back is its block of G -/

theorem flushed_eq (c : Dev nD) (G : S10000x128.Idx → Elt F .f32)
    (hG : ∀ (t : Fin cfg0.N) (ht : 25 ≤ t.val) (p : Fin 400) (j : Fin 128),
      afterOut m c t (ix2 p j) = G (ix2 (⟨400 * (t.val - 25) + p.val, row_lt t p⟩ : Fin 10000) j))
    (t : Fin cfg0.N) (hf : (cfg0.win 3).flush t = true) :
    (dats m 0 c).flushed 3 t = ((cfg0.win 3).blk t).view.read (Elt F) G := by
  have ht : 25 ≤ t.val := (sched t).1.mp hf
  obtain ⟨e0, e1⟩ := (sched t).2 ht
  show (cfg0.win 3).cut (grid0.coords t) ((dats m 0 c).after 3 t) = _
  rw [after0_3]
  funext x
  have hx0 : (x 0).val < 400 := (x 0).isLt
  have hx1 : (x 1).val < 128 := (x 1).isLt
  have e : (cfg0.win 3).xinj (grid0.coords t) x = ix2 (⟨(x 0).val, hx0⟩ : Fin 400) (⟨(x 1).val, hx1⟩ : Fin 128) :=
    funext fun a => by match a with | ⟨0, _⟩ => rfl | ⟨1, _⟩ => rfl
  show afterOut m c t ((cfg0.win 3).xinj (grid0.coords t) x) = G (((cfg0.win 3).blk t).view.emb x)
  rw [e, hG t ht]
  refine congrArg G (funext fun a => Fin.ext ?_)
  match a with
  | ⟨0, _⟩ =>
    show 400 * (t.val - 25) + (x 0).val = win0_3.index t (0 : Fin 2) * 400 + 1 * (x 0).val
    omega
  | ⟨1, _⟩ =>
    show (x 1).val = win0_3.index t (1 : Fin 2) * 128 + 1 * (x 1).val
    omega

/-! ## The written blocks tile the array -/

/-- An index of the array is in point t's block iff each coordinate is in the block's range on its axis. -/
theorem mem_blk (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v14).slice (win0_3.rect t)).set ↔ _
  rw [View.set_slice_whole, Rect.mem_set_unit]
  exact Iff.rfl

/-- Row r lies in the block written back at point 25 + r / 400. -/
theorem cover (i : S10000x128.Idx) :
    ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 50 := N_0
  obtain ⟨t, htv⟩ : ∃ t : Fin cfg0.N, t.val = 25 + (i 0).val / 400 := ⟨⟨25 + (i 0).val / 400, by omega⟩, rfl⟩
  have ht : 25 ≤ t.val := by omega
  obtain ⟨e0, e1⟩ := (sched t).2 ht
  refine ⟨t, (sched t).1.mpr ht, ?_⟩
  rw [mem_blk]
  intro a
  match a with
  | ⟨0, _⟩ =>
    show win0_3.index t (0 : Fin 2) * 400 ≤ (i 0).val ∧ (i 0).val < win0_3.index t (0 : Fin 2) * 400 + 400
    omega
  | ⟨1, _⟩ =>
    show win0_3.index t (1 : Fin 2) * 128 ≤ (i 1).val ∧ (i 1).val < win0_3.index t (1 : Fin 2) * 128 + 128
    omega

/-! ## The array after the run -/

/-- If each layer-2 point leaves in the output block, entry by entry, G at the block's rows, the output array ends
    holding G. -/
theorem arr_of_blocks (c : Dev nD) (G : S10000x128.Idx → Elt F .f32)
    (hG : ∀ (t : Fin cfg0.N) (ht : 25 ≤ t.val) (p : Fin 400) (j : Fin 128),
      afterOut m c t (ix2 p j) = G (ix2 (⟨400 * (t.val - 25) + p.val, row_lt t p⟩ : Fin 10000) j)) :
    (dats m 0 c).arrAt 3 cfg0.N = G :=
  (dats m 0 c).arrAt_eq_of_cover 3 G (fun t hf => flushed_eq m c G hG t hf) cover

/-! ## The run -/

/-- After the frame run the six argument arrays are as launched: the adjacency is the first window's array, which
    no point writes back; the other five are staged by no window. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- Every weakly fair execution of @main terminates with the output array at G on every core, provided each layer-2
    point leaves G at its block's rows, and with the six argument arrays unchanged. -/
theorem run_G (G : Dev nD → S10000x128.Idx → Elt F .f32)
    (hG : ∀ (c : Dev nD) (t : Fin cfg0.N) (ht : 25 ≤ t.val) (p : Fin 400) (j : Fin 128),
      afterOut m c t (ix2 p j) = G c (ix2 (⟨400 * (t.val - 25) + p.val, row_lt t p⟩ : Fin 10000) j)) :
    θ_run defs (onTc (τ := τ) (main (F := F))) ⟨m, fun _ => 0, ρ⟩ (fun r => ∀ c : Dev nD,
      r.2.mem ((c.tc : Thread nD τ).loc main_v14) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 3).trans (arr_of_blocks m c (G c) (hG c)), kept m r h c⟩)
    (run_main m ρ)

end Cert.KernelIdeal.Blocks

end
-- ==== Proof.Value.lean ====
/-
  The fused kernel computes the specification's two-layer network.

  Each load of a point is an entry of an argument array: the adjacency block is rows 400 b .. 400 b + 399 of the
  adjacency; the packed table is [X | 1]; the weight slab of layer l holds W_l's 256 rows and then b_l. So a layer-1
  point writes into the carried table the specification's hidden features of its rows beside a one, the hidden table is
  [hidden | 1], and a layer-2 point's block is the second layer over the hidden features: the network at its rows.
-/
import proofs.«138432_g21534966022541_cont_8to1_1342_19_alg».proof.Proof.BlockValue
import proofs.«138432_g21534966022541_cont_8to1_1342_19_alg».proof.Proof.EntryValues
import proofs.«138432_g21534966022541_cont_8to1_1342_19_alg».proof.Proof.Blocks

set_option maxRecDepth 16384

noncomputable section

open scoped BigOperators

namespace Cert.KernelIdeal.HandValue

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand Cert.KernelIdeal.BodyMath
open Idealize.ShloMosaic.ValueIdx Cert.SageSpec
open Cert.KernelIdeal.Entry

variable (m : (ℓ : Loc nD τ sig) → Buf (Elt Ideal) ℓ) (c : Dev nD)

/-! The argument arrays as coordinate functions. -/
abbrev gA : Fin 10000 → Fin 10000 → EReal := fun r q => (m ((c : Thread nD τ).loc main_arg1) : S10000x10000.Idx → EReal) (ix2 r q)
abbrev gX : Fin 10000 → Fin 128 → EReal := fun r k => (m ((c : Thread nD τ).loc main_arg0) : S10000x128.Idx → EReal) (ix2 r k)
abbrev gW1s : Fin 128 → Fin 128 → EReal := fun k j => (m ((c : Thread nD τ).loc main_arg2) : S256x128.Idx → EReal) (ix2 (lo k) j)
abbrev gW1n : Fin 128 → Fin 128 → EReal := fun k j => (m ((c : Thread nD τ).loc main_arg2) : S256x128.Idx → EReal) (ix2 (hi k) j)
abbrev gb1 : Fin 128 → EReal := fun j => (m ((c : Thread nD τ).loc main_arg3) : S128.Idx → EReal) (ix1 j)
abbrev gW2s : Fin 128 → Fin 128 → EReal := fun k j => (m ((c : Thread nD τ).loc main_arg4) : S256x128.Idx → EReal) (ix2 (lo k) j)
abbrev gW2n : Fin 128 → Fin 128 → EReal := fun k j => (m ((c : Thread nD τ).loc main_arg4) : S256x128.Idx → EReal) (ix2 (hi k) j)
abbrev gb2 : Fin 128 → EReal := fun j => (m ((c : Thread nD τ).loc main_arg5) : S128.Idx → EReal) (ix1 j)

/-! ## A point's loads, entry by entry -/

/-- The adjacency block of point t, row p: row 400 (t mod 25) + p of the adjacency. -/
theorem adj_entry (t : Fin cfg0.N) (p : Fin 400) (r : Fin 10000) (hr : r.val = 400 * (t.val % 25) + p.val) (q : Fin 10000) :
    iblk m c 0 t (ix2 p q) = gA m c r q := by
  obtain ⟨rv, hrlt⟩ := r
  dsimp only at hr
  subst hr
  rw [iblk0_apply, V_main_arg1]

/-- The packed table's feature columns are the features, -/
theorem table_feature (t : Fin cfg0.N) (q : Fin 10000) (k : Fin 128) : iblk m c 1 t (ix2 q (col k)) = gX m c q k := by
  rw [iblk1_eq, v2_apply, dif_pos (show (col k).val < 128 from k.isLt)]
/-- and its last column is ones. -/
theorem table_one (t : Fin cfg0.N) (q : Fin 10000) : iblk m c 1 t (ix2 q c128) = (1 : EReal) := by
  rw [iblk1_eq, v2_apply, dif_neg (show ¬ (c128).val < 128 from by simp)]

/-- The weight slab at a layer-1 point: the first layer's weights and bias. -/
theorem slab1_self (t : Fin cfg0.N) (h : t.val < 25) (k j : Fin 128) :
    iblk m c 2 t (ix3 (0 : Fin 1) (⟨k.val, by omega⟩ : Fin 257) j) = gW1s m c k j := by
  rw [iblk2_apply, v13_apply, dif_pos (show k.val < 256 by omega), if_pos (show t.val / 25 = 0 by omega)]
theorem slab1_neigh (t : Fin cfg0.N) (h : t.val < 25) (k j : Fin 128) :
    iblk m c 2 t (ix3 (0 : Fin 1) (⟨128 + k.val, by omega⟩ : Fin 257) j) = gW1n m c k j := by
  rw [iblk2_apply, v13_apply, dif_pos (show 128 + k.val < 256 by omega), if_pos (show t.val / 25 = 0 by omega)]
theorem slab1_bias (t : Fin cfg0.N) (h : t.val < 25) (j : Fin 128) :
    iblk m c 2 t (ix3 (0 : Fin 1) (⟨256, by omega⟩ : Fin 257) j) = gb1 m c j := by
  rw [iblk2_apply, v13_apply, dif_neg (show ¬ 256 < 256 by omega), if_pos (show t.val / 25 = 0 by omega)]

/-- The weight slab at a layer-2 point: the second layer's. -/
theorem slab2_self (t : Fin cfg0.N) (h : 25 ≤ t.val) (k j : Fin 128) :
    iblk m c 2 t (ix3 (0 : Fin 1) (⟨k.val, by omega⟩ : Fin 257) j) = gW2s m c k j := by
  have := point_lt t
  rw [iblk2_apply, v13_apply, dif_pos (show k.val < 256 by omega), if_neg (show ¬ t.val / 25 = 0 by omega)]
theorem slab2_neigh (t : Fin cfg0.N) (h : 25 ≤ t.val) (k j : Fin 128) :
    iblk m c 2 t (ix3 (0 : Fin 1) (⟨128 + k.val, by omega⟩ : Fin 257) j) = gW2n m c k j := by
  have := point_lt t
  rw [iblk2_apply, v13_apply, dif_pos (show 128 + k.val < 256 by omega), if_neg (show ¬ t.val / 25 = 0 by omega)]
theorem slab2_bias (t : Fin cfg0.N) (h : 25 ≤ t.val) (j : Fin 128) :
    iblk m c 2 t (ix3 (0 : Fin 1) (⟨256, by omega⟩ : Fin 257) j) = gb2 m c j := by
  have := point_lt t
  rw [iblk2_apply, v13_apply, dif_neg (show ¬ 256 < 256 by omega), if_neg (show ¬ t.val / 25 = 0 by omega)]

/-! ## The hidden table is [hidden | 1] -/

theorem hiddenTab_feature (q : Fin 10000) (k : Fin 128) :
    hiddenTab m c (ix2 q (col k)) = SageSpec.hidden eps zero (gA m c) (gX m c) (gW1s m c) (gW1n m c) (gb1 m c) q k := by
  have hq := q.isLt
  have hN : cfg0.N = 50 := N_0
  let t : Fin cfg0.N := ⟨q.val / 400, by omega⟩
  have h : t.val < 25 := by show q.val / 400 < 25; omega
  have hmod : t.val % 25 = q.val / 400 := by show (q.val / 400) % 25 = q.val / 400; omega
  let p : Fin 400 := ⟨q.val % 400, by omega⟩
  have hr : q.val = 400 * (t.val % 25) + p.val := by rw [hmod]; show q.val = 400 * (q.val / 400) + q.val % 400; omega
  rw [hiddenTab_eq m c (ix2 q (col k)) t h rfl]
  unfold hiddenBlk tabStores
  exact tabA_feature c (grid0.coords t) _ _ _ _ _ _ _ _ scM hscM _ _ (iblk m c 0 t) (iblk m c 1 t) (iblk m c 2 t)
    (400 * (t.val % 25)) (hoff1 t) (hoff2 t) (gA m c) (gX m c) (gW1s m c) (gW1n m c) (gb1 m c) q p hr
    (adj_entry m c t p q hr) (table_feature m c t) (table_one m c t)
    (slab1_self m c t h) (slab1_neigh m c t h) (slab1_bias m c t h) k

theorem hiddenTab_one (q : Fin 10000) : hiddenTab m c (ix2 q c128) = (1 : EReal) := by
  have hq := q.isLt
  have hN : cfg0.N = 50 := N_0
  let t : Fin cfg0.N := ⟨q.val / 400, by omega⟩
  have h : t.val < 25 := by show q.val / 400 < 25; omega
  have hmod : t.val % 25 = q.val / 400 := by show (q.val / 400) % 25 = q.val / 400; omega
  let p : Fin 400 := ⟨q.val % 400, by omega⟩
  have hr : q.val = 400 * (t.val % 25) + p.val := by rw [hmod]; show q.val = 400 * (q.val / 400) + q.val % 400; omega
  rw [hiddenTab_eq m c (ix2 q c128) t h rfl]
  unfold hiddenBlk tabStores
  exact tabA_one c (grid0.coords t) _ _ _ _ _ _ _ _ scM hscM _ _ (iblk m c 0 t) (iblk m c 1 t) (iblk m c 2 t)
    (400 * (t.val % 25)) (hoff2 t) q p hr

/-! ## A layer-2 point's block is the network at its rows -/

/-- The result array both programs compute, as the specification states it of the argument arrays. -/
abbrev Gm : S10000x128.Idx → EReal :=
  SageSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem afterOut_net (t : Fin cfg0.N) (ht : 25 ≤ t.val) (p : Fin 400) (j : Fin 128) :
    afterOut m c t (ix2 p j) = Gm m c (ix2 (⟨400 * (t.val - 25) + p.val, Blocks.row_lt t p⟩ : Fin 10000) j) := by
  have hlt := point_lt t
  have h : ¬ t.val < 25 := by omega
  unfold afterOut
  rw [dif_neg h]
  refine (outB_layer c (grid0.coords t) _ _ _ _ _ _ _ _ scM hscM _ _ (iblk m c 0 t) (iblk m c 2 t) (hiddenTab m c)
    (400 * (t.val % 25)) (hoff3 t) (gA m c) (SageSpec.hidden eps zero (gA m c) (gX m c) (gW1s m c) (gW1n m c) (gb1 m c))
    (gW2s m c) (gW2n m c) (gb2 m c) ⟨400 * (t.val - 25) + p.val, Blocks.row_lt t p⟩ p (by show 400 * (t.val - 25) + p.val = 400 * (t.val % 25) + p.val; omega)
    (adj_entry m c t p _ (by show 400 * (t.val - 25) + p.val = 400 * (t.val % 25) + p.val; omega))
    (hiddenTab_feature m c) (hiddenTab_one m c)
    (slab2_self m c t ht) (slab2_neigh m c t ht) (slab2_bias m c t ht) j).trans ?_
  rfl

/-! ## The kernel's run, read -/

/-- Every weakly fair execution of the idealized kernel terminates with the result array at the specification's
    network of the argument arrays, and the arguments unchanged. -/
theorem run_G (ρ : Dev nD → PrngReg) :
    θ_run defs (onTc (τ := τ) (main (F := Ideal))) ⟨m, fun _ => 0, ρ⟩ (fun r => ∀ c : Dev nD,
      r.2.mem ((c.tc : Thread nD τ).loc main_v14) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Blocks.run_G m ρ (fun c => Gm m c) (fun c t ht p j => afterOut_net m c t ht p j)

end Cert.KernelIdeal.HandValue

end
-- ==== Proof.RefNet.lean ====
/-
  The reference program computes the specification: its result array, read at an index, is the two-layer
  mean-aggregator network of the six argument arrays.

  One layer of the reference is the sum over the 256 columns of the row-wise concatenation [X | M] against W,
  plus the bias row, where M r k = (sum_q A r q * X q k) / max eps (0 + sum_q A r q). Splitting the 256-term sum
  at 128 gives the self term against the upper half of W and the neighbour term against the lower half; the
  sum's initial value 0 drops out. The second layer is the same term applied to the maximum of the first
  layer with zero.
-/
import proofs.«138432_g21534966022541_cont_8to1_1342_19_alg».proof.Proof.Spec
import proofs.«138432_g21534966022541_cont_8to1_1342_19_alg».proof.Proof.Gen.ReferenceIdeal.Run
import proofs.«138432_g21534966022541_cont_8to1_1342_19_alg».proof.Proof.Gen.ReferenceIdeal.Read
import Idealize.ShloMosaic.Lib.Pipeline.Value
import Idealize.ShloMosaic.Lib.ValueIdx
import Idealize.ShloMosaic.PureOps.Ideal.Laws

noncomputable section

open scoped BigOperators

namespace Cert.RefNet

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.SageSpec

/-! ## Index equations: the composed index maps of the stages, at an index given by its coordinates -/

theorem idx_deg (r : Fin 10000) (z : Fin 1) (q : Fin 10000) :
    idx_main_v0 (idx_main_v1 (ix2 r z)) q = ix2 r q :=
  funext fun a => by match a with | ⟨0, _⟩ => rfl | ⟨1, _⟩ => rfl

theorem idx_col (r : Fin 10000) (k : Fin 128) : idx_main_v4 (ix2 r k) = ix2 r (0 : Fin 1) :=
  funext fun a => by match a with | ⟨0, _⟩ => rfl | ⟨1, _⟩ => rfl

theorem lidx_agg (r : Fin 10000) (k : Fin 128) (q : Fin 10000) : lidx_main_v3 (ix2 r k) q = ix2 r q :=
  funext fun a => by match a with | ⟨0, _⟩ => rfl | ⟨1, _⟩ => rfl

theorem ridx_agg (r : Fin 10000) (k : Fin 128) (q : Fin 10000) : ridx_main_v3 (ix2 r k) q = ix2 q k :=
  funext fun a => by match a with | ⟨0, _⟩ => rfl | ⟨1, _⟩ => rfl

theorem lidx_lin (r : Fin 10000) (j : Fin 128) (k : Fin 256) : lidx_main_v7 (ix2 r j) k = ix2 r k :=
  funext fun a => by match a with | ⟨0, _⟩ => rfl | ⟨1, _⟩ => rfl

theorem ridx_lin (r : Fin 10000) (j : Fin 128) (k : Fin 256) : ridx_main_v7 (ix2 r j) k = ix2 k j :=
  funext fun a => by match a with | ⟨0, _⟩ => rfl | ⟨1, _⟩ => rfl

theorem idx_bias (r : Fin 10000) (j : Fin 128) : idx_main_v8 (idx_main_v9 (ix2 r j)) = ix1 j :=
  funext fun a => by match a with | ⟨0, _⟩ => rfl

/-! ## The row-wise concatenation [X | Y] at a column of its left half and of its right half -/

theorem concat_lo (X Y : (⟨S10000x128, .f32⟩ : BufTy).Contents (Elt Ideal)) (r : Fin 10000) (k : Fin 128) :
    concatenate S10000x256 1 [⟨S10000x128, X⟩, ⟨S10000x128, Y⟩] concatenates_S10000x128_S10000x128_S10000x256_d1
      (ix2 r (lo k)) = X (ix2 r k) :=
  concatenate_pair_apply_left (1 : Fin S10000x256.rank) X Y concatenates_S10000x128_S10000x128_S10000x256_d1
    (ix2 r (lo k)) rfl (ix2 r k) (fun b => by match b with | ⟨0, _⟩ => rfl | ⟨1, _⟩ => rfl)

theorem concat_hi (X Y : (⟨S10000x128, .f32⟩ : BufTy).Contents (Elt Ideal)) (r : Fin 10000) (k : Fin 128) :
    concatenate S10000x256 1 [⟨S10000x128, X⟩, ⟨S10000x128, Y⟩] concatenates_S10000x128_S10000x128_S10000x256_d1
      (ix2 r (hi k)) = Y (ix2 r k) :=
  concatenate_pair_apply_right (1 : Fin S10000x256.rank) X Y concatenates_S10000x128_S10000x128_S10000x256_d1
    (ix2 r (hi k)) rfl rfl (ix2 r k)
    (fun b hb => by match b with | ⟨0, _⟩ => rfl | ⟨1, _⟩ => exact absurd rfl hb)
    (show k.val + 128 = 128 + k.val from Nat.add_comm _ _)

/-! ## One layer of the reference at an index -/

section layer

variable (X : (⟨S10000x128, .f32⟩ : BufTy).Contents (Elt Ideal)) (A : (⟨S10000x10000, .f32⟩ : BufTy).Contents (Elt Ideal))
  (W : (⟨S256x128, .f32⟩ : BufTy).Contents (Elt Ideal)) (b : (⟨S128, .f32⟩ : BufTy).Contents (Elt Ideal))

/-- The clipped degree column: max eps (0 + sum_q A r q), and the initial 0 drops out. -/
theorem deg_apply (r : Fin 10000) (z : Fin 1) :
    val_main_v2 (F := Ideal) A (ix2 r z) = deg eps (fun r q => A (ix2 r q)) r := by
  rw [val_main_v2_apply, val_main_call0_v1_apply, val_main_call0_v0_apply, val_main_cst_0_apply,
    val_main_v1_apply, val_main_v0_apply, val_main_cst_apply]
  simp only [Ideal.maximumf_def, Ideal.ofBits_def, Ideal.ofBits_zero_f32, zero_add, idx_deg]
  rfl

/-- The neighbour mean: the aggregated features over the clipped degree of the row. -/
theorem neigh_apply (r : Fin 10000) (k : Fin 128) :
    val_main_v5 (F := Ideal) X A (ix2 r k)
      = neigh eps (fun r q => A (ix2 r q)) (fun r k => X (ix2 r k)) r k := by
  rw [val_main_v5_apply, val_main_v3_apply, val_main_v4_apply, idx_col, deg_apply]
  simp only [Ideal.hostDivf_def, lidx_agg, ridx_agg]
  rfl

/-- The layer: the 256-term contraction of [X | neighbour mean] against W splits at 128 into the self term
    against rows lo k of W and the neighbour term against rows hi k; the bias row is added. -/
theorem layer_apply (r : Fin 10000) (j : Fin 128) :
    val_main_v10 (F := Ideal) X A W b (ix2 r j)
      = layer eps (fun r q => A (ix2 r q)) (fun r k => X (ix2 r k)) (fun k j => W (ix2 (lo k) j))
          (fun k j => W (ix2 (hi k) j)) (fun j => b (ix1 j)) r j := by
  have hlo : ∀ k : Fin 128, val_main_v6 (F := Ideal) X A (ix2 r (lo k)) = X (ix2 r k) :=
    fun k => concat_lo X (val_main_v5 (F := Ideal) X A) r k
  have hhi : ∀ k : Fin 128, val_main_v6 (F := Ideal) X A (ix2 r (hi k))
      = neigh eps (fun r q => A (ix2 r q)) (fun r k => X (ix2 r k)) r k :=
    fun k => (concat_hi X (val_main_v5 (F := Ideal) X A) r k).trans (neigh_apply X A r k)
  rw [val_main_v10_apply, val_main_v7_apply, val_main_v9_apply, val_main_v8_apply, idx_bias]
  simp only [Ideal.addf_def, lidx_lin, ridx_lin]
  refine congrArg (· + b (ix1 j)) ?_
  refine (Fin.sum_univ_add (a := 128) (b := 128)
    (fun k : Fin 256 => val_main_v6 (F := Ideal) X A (ix2 r k) * W (ix2 k j))).trans ?_
  refine congrArg₂ (· + ·) (Finset.sum_congr rfl fun k _ => ?_) (Finset.sum_congr rfl fun k _ => ?_)
  · exact congrArg (· * W (ix2 (lo k) j)) (hlo k)
  · exact congrArg (· * W (ix2 (hi k) j)) (hhi k)

end layer

/-! ## The two layers -/

section net

variable (fts : (⟨S10000x128, .f32⟩ : BufTy).Contents (Elt Ideal)) (adj : (⟨S10000x10000, .f32⟩ : BufTy).Contents (Elt Ideal))
  (W1 : (⟨S256x128, .f32⟩ : BufTy).Contents (Elt Ideal)) (b1 : (⟨S128, .f32⟩ : BufTy).Contents (Elt Ideal))
  (W2 : (⟨S256x128, .f32⟩ : BufTy).Contents (Elt Ideal)) (b2 : (⟨S128, .f32⟩ : BufTy).Contents (Elt Ideal))

/-- The second layer is the first layer's term, applied to the hidden features. -/
theorem second_layer :
    val_main_v22 (F := Ideal) fts adj W1 b1 W2 b2
      = val_main_v10 (F := Ideal) (val_main_v11 (F := Ideal) fts adj W1 b1) adj W2 b2 := rfl

/-- The hidden features: the first layer joined with zero by a maximum. -/
theorem hidden_apply (r : Fin 10000) (k : Fin 128) :
    val_main_v11 (F := Ideal) fts adj W1 b1 (ix2 r k)
      = hidden eps zero (fun r q => adj (ix2 r q)) (fun r k => fts (ix2 r k)) (fun k j => W1 (ix2 (lo k) j))
          (fun k j => W1 (ix2 (hi k) j)) (fun j => b1 (ix1 j)) r k := by
  rw [val_main_v11_apply, val_main_call1_v0_apply, val_main_call1_cst_apply, layer_apply]
  simp only [Ideal.maximumf_def, Ideal.ofBits_def]
  rfl

/-- The reference's last stage is the specification. -/
theorem net_eq : val_main_v22 (F := Ideal) fts adj W1 b1 W2 b2 = G fts adj W1 b1 W2 b2 := by
  funext i
  obtain ⟨r, j, rfl⟩ : ∃ (r : Fin 10000) (j : Fin 128), i = ix2 r j := ⟨i 0, i 1, eq_ix2 i⟩
  have hH : (fun (r : Fin 10000) (k : Fin 128) => val_main_v11 (F := Ideal) fts adj W1 b1 (ix2 r k))
      = hidden eps zero (fun r q => adj (ix2 r q)) (fun r k => fts (ix2 r k)) (fun k j => W1 (ix2 (lo k) j))
          (fun k j => W1 (ix2 (hi k) j)) (fun j => b1 (ix1 j)) :=
    funext fun r => funext fun k => hidden_apply fts adj W1 b1 r k
  rw [second_layer, layer_apply, hH]
  rfl

end net

/-! ## The run -/

/-- The composed term the reference's run states for its result is the specification. -/
theorem ref_eq (fts : FVec Ideal S10000x128 .f32) (adj : FVec Ideal S10000x10000 .f32)
    (W1 : FVec Ideal S256x128 .f32) (b1 : FVec Ideal S128 .f32)
    (W2 : FVec Ideal S256x128 .f32) (b2 : FVec Ideal S128 .f32) :
    addf (Host.dotGeneral (F := Ideal) dot_S10000x256_S256x128_S10000x128_1_0_0_1_n_n none (concatenate S10000x256 1 [⟨S10000x128, (maximumf (addf (Host.dotGeneral (F := Ideal) dot_S10000x256_S256x128_S10000x128_1_0_0_1_n_n none (concatenate S10000x256 1 [⟨S10000x128, fts⟩, ⟨S10000x128, (Host.divf (F := Ideal) (Host.dotGeneral (F := Ideal) dot_S10000x10000_S10000x128_S10000x128_1_0_0_1_n_n none adj fts) (broadcastInDim S10000x128 ![0, 1] bcast_S10000x1_S10000x128_0_1 (maximumf (broadcastInDim S10000x1 ![] bcast_S_S10000x1 (id (constant (F := Ideal) S_ .f32 0x358637BD#32))) (broadcastInDim S10000x1 ![0] bcast_S10000_S10000x1_0 (Host.reduceAdd (F := Ideal) adj (constant (F := Ideal) S_ .f32 0x00000000#32) reducesTo_S10000x10000_S10000_d1 h_S_)))))⟩] concatenates_S10000x128_S10000x128_S10000x256_d1) W1) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32)))⟩, ⟨S10000x128, (Host.divf (F := Ideal) (Host.dotGeneral (F := Ideal) dot_S10000x10000_S10000x128_S10000x128_1_0_0_1_n_n none adj (maximumf (addf (Host.dotGeneral (F := Ideal) dot_S10000x256_S256x128_S10000x128_1_0_0_1_n_n none (concatenate S10000x256 1 [⟨S10000x128, fts⟩, ⟨S10000x128, (Host.divf (F := Ideal) (Host.dotGeneral (F := Ideal) dot_S10000x10000_S10000x128_S10000x128_1_0_0_1_n_n none adj fts) (broadcastInDim S10000x128 ![0, 1] bcast_S10000x1_S10000x128_0_1 (maximumf (broadcastInDim S10000x1 ![] bcast_S_S10000x1 (id (constant (F := Ideal) S_ .f32 0x358637BD#32))) (broadcastInDim S10000x1 ![0] bcast_S10000_S10000x1_0 (Host.reduceAdd (F := Ideal) adj (constant (F := Ideal) S_ .f32 0x00000000#32) reducesTo_S10000x10000_S10000_d1 h_S_)))))⟩] concatenates_S10000x128_S10000x128_S10000x256_d1) W1) (broadcastInDim S10000x128 ![0, 1] bcast_S1x128_S10000x128_0_1 (broadcastInDim S1x128 ![1] bcast_S128_S1x128_1 b1))) (broadcastInDim S10000x128 ![] bcast_S_S10000x128 (constant (F := Ideal) S_ .f32 0x00000000#32)))) (broadcastInDim S10000x128 ![0, 1] bcast_S10000x1_S10000x128_0_1 (maximumf (broadcastInDim S10000x1 ![] bcast_S_S10000x1 (id (constant (F := Ideal) S_ .f32 0x358637BD#32))) (broadcastInDim S10000x1 ![0] bcast_S10000_S10000x1_0 (Host.reduceAdd (F := Ideal) adj (constant (F := Ideal) S_ .f32 0x00000000#32) reducesTo_S10000x10000_S10000_d1 h_S_)))))⟩] concatenates_S10000x128_S10000x128_S10000x256_d1) W2) (broadcastInDim S10000x128 ![0, 1] bcast_S1x128_S10000x128_0_1 (broadcastInDim S1x128 ![1] bcast_S128_S1x128_1 b2))
      = G fts adj W1 b1 W2 b2 :=
  (val_main_v22_eq (F := Ideal) fts adj W1 b1 W2 b2).trans (net_eq fts adj W1 b1 W2 b2)

/-- Every weakly fair execution of the reference terminates with its result array at the specification of the six
    argument arrays, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (ref_eq _ _ _ _ _ _), (h c).2⟩)
    (Cert.ReferenceIdeal.Value.run (F := Ideal) m ρ)

end Cert.RefNet

end
-- ==== Proof.lean ====
/-
  Two stacked mean-aggregator graph layers over a dense weighted adjacency A (10000 nodes, 128 features), as one fused
  kernel and as plain array code, compute the same array on the extended reals.

  One layer at node r, feature j:  (sum_k X r k W[k, j] + sum_k ((sum_q A r q X q k) / max eps (sum_q A r q)) W[128 + k, j]) + b j;
  the network is a layer, a maximum against 0, and a second layer on the result.
  The kernel runs a 2 x 25 grid: the first 25 points compute row blocks of the hidden features from the packed table
  [X | 1] — one product against the table gives the neighbour sums and, in its last column, the row's degree — and keep
  them, again beside a column of ones, in a table carried across the grid; the last 25 points compute row blocks of the
  result from that table. The reference contracts the concatenation [X | mean] against all 256 rows of W at once; the
  kernel adds the two half contractions. The two agree by splitting one finite sum in two, 0 + x = x and x * 1 = x,
  none of which needs the inputs to be finite.

  The three frames: each kernel program's run is the frame run of its one region, with the carried table's
  known rows as the invariant; the reference's is its run with the result dropped. The idealization rewrote nothing.
-/
import proofs.«138432_g21534966022541_cont_8to1_1342_19_alg».proof.Defs
import proofs.«138432_g21534966022541_cont_8to1_1342_19_alg».proof.Proof.Gen.Kernel
import proofs.«138432_g21534966022541_cont_8to1_1342_19_alg».proof.Proof.Gen.KernelIdeal
import proofs.«138432_g21534966022541_cont_8to1_1342_19_alg».proof.Proof.Gen.ReferenceIdeal
import proofs.«138432_g21534966022541_cont_8to1_1342_19_alg».proof.Proof.Gen.Pre_finite_inputs
import proofs.«138432_g21534966022541_cont_8to1_1342_19_alg».proof.Proof.Gen.ReferenceIdeal.Run
import proofs.«138432_g21534966022541_cont_8to1_1342_19_alg».proof.Proof.Gen.ReferenceIdeal.Read
import proofs.«138432_g21534966022541_cont_8to1_1342_19_alg».proof.Proof.WordFrame
import proofs.«138432_g21534966022541_cont_8to1_1342_19_alg».proof.Proof.Frame
import proofs.«138432_g21534966022541_cont_8to1_1342_19_alg».proof.Proof.Value
import proofs.«138432_g21534966022541_cont_8to1_1342_19_alg».proof.Proof.RefNet
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the specification's network of their (equal) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.HandValue.Gm m c, Cert.KernelIdeal.HandValue.run_G m ρ, ?_⟩
  refine (θ_run Cert.ReferenceIdeal.defs _ _).mono (fun _ h c => ⟨(h c).1.trans ?_, (h c).2⟩) (Cert.RefNet.run_G m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
